-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4x64x64 : Shape := ⟨4, ![4, 4, 64, 64]⟩
abbrev S_ : Shape := ⟨0, ![]⟩

class Facts : Prop where
  bcast_S_S4x4x64x64 : S_.BroadcastsInDim S4x4x64x64 (![] : Fin 0 → Fin S4x4x64x64.rank)
  reducesTo_S4x4x64x64_S_d0_1_2_3 : S4x4x64x64.ReducesTo [0, 1, 2, 3] S_
  h_S_ : 0 < S_.numel

variable [Facts]

def fn {F : FTy → Type} [FloatOps F] (main_arg0 : FVec F S4x4x64x64 .f32) (main_arg1 : FVec F S4x4x64x64 .f32) : IVec S_ 1 :=
  let main_v0 : FVec F S4x4x64x64 .f32 := Host.absf main_arg0
  let main_cst : FVec F S_ .f32 := constant S_ .f32 0x7F800000#32
  let main_v1 : FVec F S4x4x64x64 .f32 := broadcastInDim S4x4x64x64 ![] bcast_S_S4x4x64x64 main_cst
  let main_v2 : IVec S4x4x64x64 1 := cmpf .olt main_v0 main_v1
  let main_c : IVec S_ 1 := constantI S_ 1 1#1
  let main_v3 : IVec S_ 1 := (fun x v => Host.reduce IntOp.andi x v reducesTo_S4x4x64x64_S_d0_1_2_3 h_S_) main_v2 main_c
  let main_v4 : FVec F S4x4x64x64 .f32 := Host.absf main_arg1
  let main_cst_0 : FVec F S_ .f32 := constant S_ .f32 0x7F800000#32
  let main_v5 : FVec F S4x4x64x64 .f32 := broadcastInDim S4x4x64x64 ![] bcast_S_S4x4x64x64 main_cst_0
  let main_v6 : IVec S4x4x64x64 1 := cmpf .olt main_v4 main_v5
  let main_c_1 : IVec S_ 1 := constantI S_ 1 1#1
  let main_v7 : IVec S_ 1 := (fun x v => Host.reduce IntOp.andi x v reducesTo_S4x4x64x64_S_d0_1_2_3 h_S_) main_v6 main_c_1
  let main_v8 : IVec S_ 1 := andi main_v3 main_v7
  main_v8
-- ==== Kernel.lean ====
abbrev S4x4x64x64 : Shape := ⟨4, ![4, 4, 64, 64]⟩
abbrev S4x4x4096 : Shape := ⟨3, ![4, 4, 4096]⟩
abbrev S_ : Shape := ⟨0, ![]⟩
abbrev S4x4096 : Shape := ⟨2, ![4, 4096]⟩
abbrev S4x1x4096 : Shape := ⟨3, ![4, 1, 4096]⟩
abbrev S1x1 : Shape := ⟨2, ![1, 1]⟩
abbrev S1x4x1024 : Shape := ⟨3, ![1, 4, 1024]⟩
abbrev S4x1024 : Shape := ⟨2, ![4, 1024]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 28
  | .vmem => 10
  | .smem => 0
  | _ => 0

abbrev bufTy : (tb : Table) → Fin (tcTables nBuf tb) → BufTy
  | .hbm, ⟨0, _⟩ => ⟨S4x4x64x64, .f32⟩
  | .hbm, ⟨1, _⟩ => ⟨S4x4x64x64, .f32⟩
  | .hbm, ⟨2, _⟩ => ⟨S4x4x4096, .f32⟩
  | .hbm, ⟨3, _⟩ => ⟨S4x4x4096, .f32⟩
  | .hbm, ⟨4, _⟩ => ⟨S_, .f32⟩
  | .hbm, ⟨5, _⟩ => ⟨S4x4096, .f32⟩
  | .hbm, ⟨6, _⟩ => ⟨S4x1x4096, .f32⟩
  | .hbm, ⟨7, _⟩ => ⟨S4x1x4096, .f32⟩
  | .hbm, ⟨8, _⟩ => ⟨S_, .f32⟩
  | .hbm, ⟨9, _⟩ => ⟨S4x1x4096, .f32⟩
  | .hbm, ⟨10, _⟩ => ⟨S4x1x4096, .f32⟩
  | .hbm, ⟨11, _⟩ => ⟨S4x4x4096, .f32⟩
  | .hbm, ⟨12, _⟩ => ⟨S4x4x4096, .f32⟩
  | .hbm, ⟨13, _⟩ => ⟨S4x4x4096, .f32⟩
  | .hbm, ⟨14, _⟩ => ⟨S4x4x4096, .f32⟩
  | .hbm, ⟨15, _⟩ => ⟨S_, .f32⟩
  | .hbm, ⟨16, _⟩ => ⟨S4x4096, .f32⟩
  | .hbm, ⟨17, _⟩ => ⟨S4x1x4096, .f32⟩
  | .hbm, ⟨18, _⟩ => ⟨S4x1x4096, .f32⟩
  | .hbm, ⟨19, _⟩ => ⟨S_, .f32⟩
  | .hbm, ⟨20, _⟩ => ⟨S4x1x4096, .f32⟩
  | .hbm, ⟨21, _⟩ => ⟨S4x1x4096, .f32⟩
  | .hbm, ⟨22, _⟩ => ⟨S4x4x4096, .f32⟩
  | .hbm, ⟨23, _⟩ => ⟨S4x4x4096, .f32⟩
  | .hbm, ⟨24, _⟩ => ⟨S1x1, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S1x4x1024, .f32⟩
  | .local _ .vmem, ⟨1, _⟩ => ⟨S1x4x1024, .f32⟩
  | .local _ .vmem, ⟨2, _⟩ => ⟨S1x4x1024, .f32⟩
  | .local _ .vmem, ⟨3, _⟩ => ⟨S1x4x1024, .f32⟩
  | .local _ .vmem, ⟨4, _⟩ => ⟨S1x4x1024, .f32⟩
  | .local _ .vmem, ⟨5, _⟩ => ⟨S1x4x1024, .f32⟩
  | .local _ .vmem, ⟨6, _⟩ => ⟨S1x4x1024, .f32⟩
  | .local _ .vmem, ⟨7, _⟩ => ⟨S1x4x1024, .f32⟩
  | .local _ .vmem, ⟨8, _⟩ => ⟨S1x1, .f32⟩
  | .local _ .vmem, ⟨9, _⟩ => ⟨S1x1, .f32⟩
  | _, _ => ⟨S4x4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg0 : BitVec 32 := BitVec.ofNat 32 (i 0).val
  let c3_i32 : BitVec 32 := 3#32
  let v29 : BitVec 1 := Scalar.cmpi .eq arg0 c3_i32
  let arg1 : BitVec 32 := BitVec.ofNat 32 (i 1).val
  let c3_i32_20 : BitVec 32 := 3#32
  let v30 : BitVec 1 := Scalar.cmpi .eq arg1 c3_i32_20
  let v31 : BitVec 1 := Scalar.andi v29 v30
  let arg2 : BitVec 32 := BitVec.ofNat 32 (i 2).val
  let c3_i32_21 : BitVec 32 := 3#32
  let v32 : BitVec 1 := Scalar.cmpi .eq arg2 c3_i32_21
  let v33 : BitVec 1 := Scalar.andi v31 v32
  let v34 : BitVec 32 := Scalar.extui v33
  let c0_i32_22 : BitVec 32 := 0#32
  let v35 : BitVec 1 := Scalar.cmpi .ne v34 c0_i32_22
  v35

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

class Facts₀ : Prop where
  shapeCasts_S4x4x64x64_S4x4x4096 : S4x4x64x64.ShapeCasts S4x4x4096
  reducesTo_S4x4x4096_S4x4096_d1 : S4x4x4096.ReducesTo [1] S4x4096
  h_S_ : 0 < S_.numel
  bcast_S4x4096_S4x1x4096_0_2 : S4x4096.BroadcastsInDim S4x1x4096 (![0, 2] : Fin 2 → Fin S4x1x4096.rank)
  bcast_S_S4x1x4096 : S_.BroadcastsInDim S4x1x4096 (![] : Fin 0 → Fin S4x1x4096.rank)
  bcast_S4x1x4096_S4x4x4096_0_1_2 : S4x1x4096.BroadcastsInDim S4x4x4096 (![0, 1, 2] : Fin 3 → Fin S4x4x4096.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x4x1024_S1x4x1024_0_0_0 : ∀ a, (![0, 0, 0] : Fin 3 → Nat) a + S1x4x1024.size a ≤ S1x4x1024.size a
  h_S1x4x1024 : 0 < S1x4x1024.numel
  shapeCasts_S1x4x1024_S4x1024 : S1x4x1024.ShapeCasts S4x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S4x1024_S4x1024_S1024x1024_0_0_1_1_n_n_wf : DotDims.WF S4x1024 S4x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x1024.size a ≤ S4x4x4096.size a
  hwx0_0 : ∀ i : grid0.Coords, EltTy.bits .f32 = 32 ∨ (Rect.block (s := S4x4x4096) S1x4x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x1024.size a ≤ S4x4x4096.size a
  hwx0_1 : ∀ i : grid0.Coords, EltTy.bits .f32 = 32 ∨ (Rect.block (s := S4x4x4096) S1x4x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x1024.size a ≤ S4x4x4096.size a
  hwx0_2 : ∀ i : grid0.Coords, EltTy.bits .f32 = 32 ∨ (Rect.block (s := S4x4x4096) S1x4x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x1024.size a ≤ S4x4x4096.size a
  hwx0_3 : ∀ i : grid0.Coords, EltTy.bits .f32 = 32 ∨ (Rect.block (s := S4x4x4096) S1x4x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

def dot_S4x1024_S4x1024_S1024x1024_0_0_1_1_n_n : DotDims S4x1024 S4x1024 S1024x1024 where
  lhsContracting := [0]
  rhsContracting := [0]
  lhsNonContracting := [1]
  rhsNonContracting := [1]
  lhsBatch := []
  rhsBatch := []
  wf := dot_S4x1024_S4x1024_S1024x1024_0_0_1_1_n_n_wf

abbrev win0_0 : Pipeline.Window sig grid0 :=
  Pipeline.Window.ofSpec (Memref.whole main_v8) S1x4x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S1x4x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x4x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x4x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x4x64x64 : Shape := ⟨4, ![4, 4, 64, 64]⟩
abbrev S4x4x4096 : Shape := ⟨3, ![4, 4, 4096]⟩
abbrev S_ : Shape := ⟨0, ![]⟩
abbrev S4x4096 : Shape := ⟨2, ![4, 4096]⟩
abbrev S4x1x4096 : Shape := ⟨3, ![4, 1, 4096]⟩
abbrev S4x4096x4096 : Shape := ⟨3, ![4, 4096, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4x4x64x64, .f32⟩
  | .hbm, ⟨1, _⟩ => ⟨S4x4x64x64, .f32⟩
  | .hbm, ⟨2, _⟩ => ⟨S4x4x4096, .f32⟩
  | .hbm, ⟨3, _⟩ => ⟨S4x4x4096, .f32⟩
  | .hbm, ⟨4, _⟩ => ⟨S_, .f32⟩
  | .hbm, ⟨5, _⟩ => ⟨S4x4096, .f32⟩
  | .hbm, ⟨6, _⟩ => ⟨S4x1x4096, .f32⟩
  | .hbm, ⟨7, _⟩ => ⟨S4x1x4096, .f32⟩
  | .hbm, ⟨8, _⟩ => ⟨S_, .f32⟩
  | .hbm, ⟨9, _⟩ => ⟨S4x1x4096, .f32⟩
  | .hbm, ⟨10, _⟩ => ⟨S4x1x4096, .f32⟩
  | .hbm, ⟨11, _⟩ => ⟨S4x4x4096, .f32⟩
  | .hbm, ⟨12, _⟩ => ⟨S4x4x4096, .f32⟩
  | .hbm, ⟨13, _⟩ => ⟨S4x4x4096, .f32⟩
  | .hbm, ⟨14, _⟩ => ⟨S4x4x4096, .f32⟩
  | .hbm, ⟨15, _⟩ => ⟨S_, .f32⟩
  | .hbm, ⟨16, _⟩ => ⟨S4x4096, .f32⟩
  | .hbm, ⟨17, _⟩ => ⟨S4x1x4096, .f32⟩
  | .hbm, ⟨18, _⟩ => ⟨S4x1x4096, .f32⟩
  | .hbm, ⟨19, _⟩ => ⟨S_, .f32⟩
  | .hbm, ⟨20, _⟩ => ⟨S4x1x4096, .f32⟩
  | .hbm, ⟨21, _⟩ => ⟨S4x1x4096, .f32⟩
  | .hbm, ⟨22, _⟩ => ⟨S4x4x4096, .f32⟩
  | .hbm, ⟨23, _⟩ => ⟨S4x4x4096, .f32⟩
  | .hbm, ⟨24, _⟩ => ⟨S4x4096x4096, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S4x4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  shapeCasts_S4x4x64x64_S4x4x4096 : S4x4x64x64.ShapeCasts S4x4x4096
  reducesTo_S4x4x4096_S4x4096_d1 : S4x4x4096.ReducesTo [1] S4x4096
  h_S_ : 0 < S_.numel
  bcast_S4x4096_S4x1x4096_0_2 : S4x4096.BroadcastsInDim S4x1x4096 (![0, 2] : Fin 2 → Fin S4x1x4096.rank)
  bcast_S_S4x1x4096 : S_.BroadcastsInDim S4x1x4096 (![] : Fin 0 → Fin S4x1x4096.rank)
  bcast_S4x1x4096_S4x4x4096_0_1_2 : S4x1x4096.BroadcastsInDim S4x4x4096 (![0, 1, 2] : Fin 3 → Fin S4x4x4096.rank)
  reducesTo_S4x4096x4096_S_d0_1_2 : S4x4096x4096.ReducesTo [0, 1, 2] S_
  dot_S4x4x4096_S4x4x4096_S4x4096x4096_1_1_2_2_0_0_wf : DotDims.WF S4x4x4096 S4x4x4096 S4x4096x4096 [1] [1] [2] [2] [0] [0]

variable [Facts₀]

def dot_S4x4x4096_S4x4x4096_S4x4096x4096_1_1_2_2_0_0 : DotDims S4x4x4096 S4x4x4096 S4x4096x4096 where
  lhsContracting := [1]
  rhsContracting := [1]
  lhsNonContracting := [2]
  rhsNonContracting := [2]
  lhsBatch := [0]
  rhsBatch := [0]
  wf := dot_S4x4x4096_S4x4x4096_S4x4096x4096_1_1_2_2_0_0_wf

class Facts : Prop extends Facts₀ where

variable [Facts]
-- ==== Proof.Kernel.Runs.lean ====
/-
  What the three runs of the kernel body share.

  The grid has 64 points, (batch, row tile, column tile) in row-major order. The body zeroes its one-cell scratch at the
  first point, adds the tile's sum of squared Gram differences to it at every point, and copies it to the one-cell output
  at the last point. Stated here: each input window's block at a point, read off its array as the region finds it; that an
  input's staging buffer holds that block at every point, fetched there or not; the two branch conditions in closed form
  over the point's number; where the output window is idle and where it is written back; and the staging and scratch
  buffers as the pipeline hands them to the body.
-/
import proofs.«161009_j25426206392656_1_alg».proof.Proof.Gen.Kernel.Launch
import proofs.«161009_j25426206392656_1_alg».proof.Proof.Gen.Kernel.Skeleton
import proofs.«161009_j25426206392656_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter, fixed by the run
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch's condition, "all three coordinates are zero", as the body computes it. -/
abbrev cond0_0 (i : grid0.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at the first point only. -/
theorem hcond0_0 : ∀ t : Fin cfg0.N, cond0_0 (grid0.coords t) ↔ t.val % 64 = 0 :=
  (by decide +kernel : ∀ t : Fin grid0.N, cond0_0 (grid0.coords t) ↔ t.val % 64 = 0)

/-- The second branch's condition, "all three coordinates are three". -/
abbrev cond0_1 (i : grid0.Coords) : Prop := k0_cond2 i = 1#1
/-- It holds at the last point only. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the output window is idle: the body stores nothing into it, -/
theorem idleAt0_4 : ∀ t : Fin cfg0.N, ¬cond0_1 (grid0.coords t) → cfg0.idle 4 (grid0.coords t) = true := by decide +kernel
/-- and the pipeline does not write its block back. -/
theorem noFlush0_4 : ∀ t : Fin cfg0.N, ¬cond0_1 (grid0.coords t) → (cfg0.win 4).flush t = false := by decide +kernel
/-- At the last point it is live. -/
theorem liveAt0_4 : ∀ t : Fin cfg0.N, cond0_1 (grid0.coords t) → cfg0.idle 4 (grid0.coords t) = false := by decide +kernel

/-! ## The staging and scratch buffers as the body receives them -/

/-- The output window's one staging buffer, through which its contents are stated. -/
abbrev VO0_4 : View sig .tc .vmem S1x1 .f32 := (Memref.whole cc0_stg4_0 : Memref sig .tc .vmem S1x1 .f32).view
abbrev ms0_0 (t : Fin cfg0.N) : Memref sig .tc .vmem S1x4x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The scratch cell the body carries between points. -/
abbrev scM0_0 : Memref sig .tc .vmem S1x1 .f32 := Memref.whole cc0_scratch0
abbrev VS0_0 : View sig .tc .vmem S1x1 .f32 := scM0_0.view

/-- The region's plain invariant with the scratch cell owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.Kernel.RunA.lean ====
/-
  The body's run at the first grid point: the scratch cell, handed over at contents nobody names, is zeroed and then
  receives the first tile's sum; the output cell is left as it was found. The pieces the stores leave are found by the run.
-/
import proofs.«161009_j25426206392656_1_alg».proof.Proof.Kernel.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point: on whole staging buffers — the four input blocks at their contents, the output cell at contents
    handed back untouched, the scratch cell at anything — the body runs to its end holding the inputs as they were, the
    output cell untouched, and the scratch cell with the run's pieces written. -/
noncomputable def kernelRun0_A (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 x3 : Vec F S1x4x1024 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__cosine_gram_sqdiff_kernel i arg3 harg3 arg4 harg4 arg5 harg5 arg6 harg6 arg7 harg7 arg8 harg8) K } := by
  refine ⟨[], ?_, fun xi4 E K => ?run⟩
  case run =>
    simp only [cc0__cosine_gram_sqdiff_kernel_eq_skeleton]; unfold cc0__cosine_gram_sqdiff_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.Kernel.RunB.lean ====
/-
  The body's run at a grid point that is neither first nor last: the scratch cell, at what the point before left, receives
  that plus this tile's sum; the output cell is left as it was found.
-/
import proofs.«161009_j25426206392656_1_alg».proof.Proof.Kernel.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle point: the inputs at their contents, the output cell handed back untouched, the scratch cell at the
    contents `xs0` the point before left; the body ends with the scratch cell at the run's pieces. -/
noncomputable def kernelRun0_B (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 x3 : Vec F S1x4x1024 .f32) (xs0 : Vec F S1x1 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__cosine_gram_sqdiff_kernel i arg3 harg3 arg4 harg4 arg5 harg5 arg6 harg6 arg7 harg7 arg8 harg8) K } := by
  refine ⟨[], ?_, fun xi4 E K => ?run⟩
  case run =>
    simp only [cc0__cosine_gram_sqdiff_kernel_eq_skeleton]; unfold cc0__cosine_gram_sqdiff_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.Kernel.RunC.lean ====
/-
  The body's run at the last grid point: the scratch cell receives the last tile's sum, and its contents are then stored
  into the output cell, whatever that held.
-/
import proofs.«161009_j25426206392656_1_alg».proof.Proof.Kernel.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last point: the inputs at their contents, the output cell at anything, the scratch cell at what the point
    before left; the body ends with both cells at the run's pieces. -/
noncomputable def kernelRun0_C (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1x4x1024 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__cosine_gram_sqdiff_kernel i arg3 harg3 arg4 harg4 arg5 harg5 arg6 harg6 arg7 harg7 arg8 harg8) K } := by
  refine ⟨?_, ?_, fun E K => ?run⟩
  case run =>
    simp only [cc0__cosine_gram_sqdiff_kernel_eq_skeleton]; unfold cc0__cosine_gram_sqdiff_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Hand

end
-- ==== Proof.Kernel.Body.lean ====
/-
  What the two cells hold after each grid point, the region's invariant that tracks the scratch cell, the pipeline's proof
  data, and the body obligation.

  After point n the scratch cell holds the sum of the tiles 0..n (as the runs' pieces read back); the output cell is idle
  until the last point, where it receives the scratch cell's contents. The two input windows on each feature array each
  hold half of that array's share, since the pipeline hands one array to both.
-/
import proofs.«161009_j25426206392656_1_alg».proof.Proof.Kernel.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for the scratch cell cover it. -/
theorem scover0_A_0 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 x3 : Vec F S1x4x1024 .f32) (y : S1x1.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S1x1.size (by sl_kernel_rfl) y

/-- What case A leaves in the scratch cell: its pieces read back. -/
def sout0_A_0 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 x3 : Vec F S1x4x1024 .f32) : Vec F S1x1 .f32 :=
  VS0_0.read (Elt F) (VS0_0.writes (Elt F) VS0_0.junk (kernelRun0_A c i arg3 harg3 arg4 harg4 arg5 harg5 arg6 harg6 arg7 harg7 arg8 harg8 hc0 hc1 x0 x1 x2 x3).2.1)

/-- What case A leaves in the output cell (nothing is stored: a placeholder nothing consults, the window being idle there). -/
def out0_A_4 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 x3 : Vec F S1x4x1024 .f32) : Vec F S1x1 .f32 :=
  VO0_4.read (Elt F) (VO0_4.writes (Elt F) VO0_4.junk (kernelRun0_A c i arg3 harg3 arg4 harg4 arg5 harg5 arg6 harg6 arg7 harg7 arg8 harg8 hc0 hc1 x0 x1 x2 x3).1)

/-- Case B's pieces for the scratch cell cover it. -/
theorem scover0_B_0 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 x3 : Vec F S1x4x1024 .f32) (xs0 : Vec F S1x1 .f32) (y : S1x1.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S1x1.size (by sl_kernel_rfl) y

/-- What case B leaves in the scratch cell: its pieces read back. -/
def sout0_B_0 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 x3 : Vec F S1x4x1024 .f32) (xs0 : Vec F S1x1 .f32) : Vec F S1x1 .f32 :=
  VS0_0.read (Elt F) (VS0_0.writes (Elt F) VS0_0.junk (kernelRun0_B c i arg3 harg3 arg4 harg4 arg5 harg5 arg6 harg6 arg7 harg7 arg8 harg8 hc0 hc1 x0 x1 x2 x3 xs0).2.1)

/-- What case B leaves in the output cell (nothing is stored: a placeholder nothing consults, the window being idle there). -/
def out0_B_4 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 x3 : Vec F S1x4x1024 .f32) (xs0 : Vec F S1x1 .f32) : Vec F S1x1 .f32 :=
  VO0_4.read (Elt F) (VO0_4.writes (Elt F) VO0_4.junk (kernelRun0_B c i arg3 harg3 arg4 harg4 arg5 harg5 arg6 harg6 arg7 harg7 arg8 harg8 hc0 hc1 x0 x1 x2 x3 xs0).1)

/-- Case C's pieces for the scratch cell cover it. -/
theorem scover0_C_0 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1x4x1024 .f32) (xs0 : Vec F S1x1 .f32) (y : S1x1.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S1x1.size (by sl_kernel_rfl) y

/-- What case C leaves in the scratch cell: its pieces read back. -/
def sout0_C_0 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1x4x1024 .f32) (xs0 : Vec F S1x1 .f32) : Vec F S1x1 .f32 :=
  VS0_0.read (Elt F) (VS0_0.writes (Elt F) VS0_0.junk (kernelRun0_C c i arg3 harg3 arg4 harg4 arg5 harg5 arg6 harg6 arg7 harg7 arg8 harg8 hc0 hc1 x0 x1 x2 x3 xs0).2.1)

/-- Case C's pieces for the output cell cover it. -/
theorem cover0_C_4 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1x4x1024 .f32) (xs0 : Vec F S1x1 .f32) (y : S1x1.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S1x1.size (by sl_kernel_rfl) y

/-- What case C leaves in the output cell. -/
def out0_C_4 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1x4x1024 .f32) (xs0 : Vec F S1x1 .f32) : Vec F S1x1 .f32 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)

/-! ## The accumulation, point by point -/

theorem N64 : cfg0.N = 64 := N_0

/-- What the output cell and the scratch cell hold after the body at position `n`: the case the closed forms select there,
    run at the point's buffers and input blocks, on what the point before left in the scratch cell. -/
def outsAt0 (c : Dev nD) : (n : ℕ) → n < cfg0.N → Vec F S1x1 .f32 × Vec F S1x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => by have := (hcond0_1 ⟨0, hn⟩).mp h; (try dsimp only at this); omega) (iblk V c 0 ⟨0, hn⟩) (iblk V c 1 ⟨0, hn⟩) (iblk V c 2 ⟨0, hn⟩) (iblk V c 3 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => by have := (hcond0_1 ⟨0, hn⟩).mp h; (try dsimp only at this); omega) (iblk V c 0 ⟨0, hn⟩) (iblk V c 1 ⟨0, hn⟩) (iblk V c 2 ⟨0, hn⟩) (iblk V c 3 ⟨0, hn⟩))
  | n + 1, hn =>
    if h1 : (n + 1) % 64 = 63 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => by have := (hcond0_0 ⟨n + 1, hn⟩).mp h; have hN : n + 1 < 64 := lt_of_lt_of_eq hn N64; (try dsimp only at this); omega) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => by have := (hcond0_0 ⟨n + 1, hn⟩).mp h; have hN : n + 1 < 64 := lt_of_lt_of_eq hn N64; (try dsimp only at this); omega) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2)
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => by have := (hcond0_0 ⟨n + 1, hn⟩).mp h; have hN : n + 1 < 64 := lt_of_lt_of_eq hn N64; (try dsimp only at this); omega) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => by have := (hcond0_0 ⟨n + 1, hn⟩).mp h; have hN : n + 1 < 64 := lt_of_lt_of_eq hn N64; (try dsimp only at this); omega) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2)

/-- `outsAt0` at the first point. -/
theorem outsAt0_A (c : Dev nD) (t : Fin cfg0.N) (h0 : t.val = 0) (hc0 : cond0_0 (grid0.coords t)) (hc1 : ¬cond0_1 (grid0.coords t)) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk V c 0 t) (iblk V c 1 t) (iblk V c 2 t) (iblk V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk V c 0 t) (iblk V c 1 t) (iblk V c 2 t) (iblk V c 3 t)) := by
  obtain ⟨n, hn⟩ := t
  cases n with
  | zero => exact rfl
  | succ n => exact absurd h0 (Nat.succ_ne_zero n)

/-- `outsAt0` at a middle point: over what the point before left. -/
theorem outsAt0_B (c : Dev nD) (t : Fin cfg0.N) (h0 : t.val ≠ 0) (h1 : ¬t.val % 64 = 63) (hc0 : ¬cond0_0 (grid0.coords t)) (hc1 : ¬cond0_1 (grid0.coords t)) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk V c 0 t) (iblk V c 1 t) (iblk V c 2 t) (iblk V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk V c 0 t) (iblk V c 1 t) (iblk V c 2 t) (iblk V c 3 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : t.val ≠ 0) (h1 : t.val % 64 = 63) (hc0 : ¬cond0_0 (grid0.coords t)) (hc1 : cond0_1 (grid0.coords t)) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk V c 0 t) (iblk V c 1 t) (iblk V c 2 t) (iblk V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk V c 0 t) (iblk V c 1 t) (iblk V c 2 t) (iblk V c 3 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant that tracks the scratch cell -/

/-- Before position `n`: before the first point the plain invariant (the scratch cell at anything); afterwards the scratch
    cell at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2)) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2)) ∗ (∃ r, prngReg c r)) := by
  cases n with
  | zero => exact absurd rfl hz
  | succ n => rfl

/-! ## The pipeline's proof data -/

/-- The proof data on core `c`: the arrays as the region finds them; after the body at point `t` each input's buffer at its
    block and the output's at the accumulation's first component; the tracking invariant; nothing owed; each feature
    array's share dealt in halves to the two windows on it, the output's array held whole. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk V c 0 t :=
  before0_0_of V (dat0 V c) (A_eq V c 0) (after0_0 V c) t d
theorem before0_1 (c : Dev nD) (t : Fin cfg0.N) (d) : (dat0 V c).before 1 t d = iblk V c 1 t :=
  before0_1_of V (dat0 V c) (A_eq V c 1) (after0_1 V c) t d
theorem before0_2 (c : Dev nD) (t : Fin cfg0.N) (d) : (dat0 V c).before 2 t d = iblk V c 2 t :=
  before0_2_of V (dat0 V c) (A_eq V c 2) (after0_2 V c) t d
theorem before0_3 (c : Dev nD) (t : Fin cfg0.N) (d) : (dat0 V c).before 3 t d = iblk V c 3 t :=
  before0_3_of V (dat0 V c) (A_eq V c 3) (after0_3 V c) t d

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' buffers hold their blocks; the closed forms say which case the point is in; the
    invariant hands the body the scratch cell at what the point before left (at anything at the first point) and takes it
    back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt N64
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  by_cases h1 : t.val % 64 = 63
  · -- the last point
    have hz : t.val ≠ 0 := by omega
    have hc0 : ¬cond0_0 (grid0.coords t) := fun h => by have := (hcond0_0 t).mp h; omega
    have hc1 : cond0_1 (grid0.coords t) := (hcond0_1 t).mpr h1
    rw [show (dat0 V c).leavesExact 4 t = owns (c : Thread nD τ) (ms0_4 t) fullShare ((dat0 V c).after 4 t) from by
      unfold Dat.leavesExact; rw [liveAt0_4 t hc1], after0_4]
    rw [outsAt0_C V c t hz h1 hc0 hc1]
    unfold out0_C_4 sout0_C_0; (try dsimp only)
    rw [PhiS_castSucc V c t, PhiS_pos V c _ _ hz]
    iintro ⟨⟨HS0, Hg⟩, Ho, ⟨%d0, H0⟩, ⟨%d1, H1⟩, ⟨%d2, H2⟩, ⟨%d3, H3⟩, ⟨%d4, H4⟩⟩
    iapply ((kernelRun0_C c (grid0.coords t) _ _ _ _ _ _ _ _ _ _ _ _ hc0 hc1 (iblk V c 0 t) (iblk V c 1 t) (iblk V c 2 t) (iblk V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hg]
    · isplitl [HS0]
      · unfold owns; iexists _; isplitr
        swap; · iexact HS0
        ipureintro; exact View.read_writes_of_cover _ _ _ _ _ (scover0_C_0 c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_C_4 c _ _ _ _ _ _ _ _ _ _ _ _ _ _ _ _ _ _ _ _)
  · have hc1 : ¬cond0_1 (grid0.coords t) := fun h => h1 ((hcond0_1 t).mp h)
    rw [Dat.leavesExact_idle (dat0 V c) 4 t (idleAt0_4 t hc1) (noFlush0_4 t hc1)]
    by_cases hz : t.val = 0
    · -- the first point
      have hc0 : cond0_0 (grid0.coords t) := (hcond0_0 t).mpr (by omega)
      rw [outsAt0_A V c t hz hc0 hc1]
      unfold sout0_A_0; (try dsimp only)
      rw [PhiS_castSucc V c t, PhiS_zero V c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ hc0 hc1 (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · -- a middle point
      have hc0 : ¬cond0_0 (grid0.coords t) := fun h => by have := (hcond0_0 t).mp h; omega
      rw [outsAt0_B V c t hz h1 hc0 hc1]
      unfold sout0_B_0; (try dsimp only)
      rw [PhiS_castSucc V c t, PhiS_pos V c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ hc0 hc1 (iblk V c 0 t) (iblk V c 1 t) (iblk V c 2 t) (iblk V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat0 (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: the scratch cell's contents are forgotten. -/
theorem hout (c : Dev nD) : (dat0 V c).Φ (Fin.last cfg0.N) ⊢ Pipeline.ΦA spec0 c := by
  have ht : (Fin.last cfg0.N).val ≠ 0 := by rw [Fin.val_last]; have : cfg0.N = 64 := N64; omega
  rw [show (dat0 V c).Φ (Fin.last cfg0.N) = PhiS V c (Fin.last cfg0.N).val (Nat.le_of_lt_succ (Fin.last cfg0.N).isLt) from rfl, PhiS_pos V c _ _ ht, PhiA0_eq]
  iintro ⟨HS0, Hg⟩
  isplitl [HS0]
  · iexists _; iexact HS0
  iexact Hg

end Cert.Kernel.Hand

end
-- ==== Proof.Kernel.Run.lean ====
/-
  The whole run of the program: the buffer contents at each boundary of @main (after the host operations before the region,
  at the region's exit, after the host operations that follow it), the region as a segment whose entry deals each feature
  array's full share in halves to the two windows reading it and whose exit puts the halves together again, and the launch:
  every weakly fair execution terminates with every buffer of @main at the last boundary's contents.
-/
import proofs.«161009_j25426206392656_1_alg».proof.Proof.Kernel.Body
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- At launch. -/
abbrev W0 : Dev nD → Valuation τ sig (Elt F) := fun c b => (s₀ m ρ).mem ((c : Dev nD), b)
/-- After the host operations before the region (the region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

open Classical in
/-- At the region's exit: the output's array at what the one write-back left, every other buffer as entered. -/
def W2 (c : Dev nD) : Valuation τ sig (Elt F) := fun b =>
  if h : Proc.devRef .tc main_v18 = b then
    cast (congrArg (fun b' : DevRef τ sig => b'.ty.Contents (Elt F)) h) ((dat0 (V1 m ρ) c).arrAt 4 cfg0.N)
  else W1 m ρ c b
theorem W2_out (c : Dev nD) : W2 m ρ c (Proc.devRef .tc main_v18) = (dat0 (V1 m ρ) c).arrAt 4 cfg0.N := by
  unfold W2; rw [dif_pos rfl]; rfl
theorem W2_of_ne (c : Dev nD) (b : Ref sig .tc) (hb : main_v18 ≠ b) : W2 m ρ c (Proc.devRef .tc b) = W1 m ρ c (Proc.devRef .tc b) := by
  unfold W2; rw [dif_neg]; exact fun e => hb (Proc.devRef_injective _ e)
abbrev V2 : (c : Dev nD) → (b : Ref sig .tc) → Buf (Elt F) ((c : Thread nD τ).loc b) := fun c b => W2 m ρ c b
/-- After the host operations that follow the region (the return). -/
abbrev W3 : Dev nD → Valuation τ sig (Elt F) := fun c => StableHlo.after hostOps1 (W2 m ρ c)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## Dealing the arrays' shares -/

/-- The distinct buffers behind the windows' arrays. -/
theorem arrRefs_eq : Finset.univ.image (Pipeline.arrRef spec0) = {main_v8, main_v17, main_v18} := by decide

/-- A conjunction over three distinct indices, in the proof mode's syntax. -/
theorem bigSep_three {I : Type} [DecidableEq I] {a b d : I} (hab : a ∉ ({b, d} : Finset I)) (hbd : b ∉ ({d} : Finset I)) (Φ : I → sProp 𝕄) :
    bigSep ({a, b, d} : Finset I) Φ = iprop(Φ a ∗ Φ b ∗ Φ d) := by
  rw [bigSep_insert hab, bigSep_insert hbd, bigSep_singleton]; rfl

section Shares
variable (V : (c : Dev nD) → (b : Ref sig .tc) → Buf (Elt F) ((c : Thread nD τ).loc b))

/-- ENTRY: the three buffers behind the arrays, each whole at the full share, make the pipeline's arrays — each
    feature array's share cut in halves, one for each of the two windows on it. -/
theorem arrays_of_arrBufs (c : Dev nD) (Vc : (b : Ref sig .tc) → Buf (Elt F) ((c : Thread nD τ).loc b))
    (Fw : (w : Fin cfg0.W) → Buf (Elt F) ((cfg0.win w).arr.view.loc (c : Thread nD τ)))
    (hF : ∀ w, Fw w = Vc (Pipeline.arrRef spec0 w)) :
    (Pipeline.arrBufs spec0 c Vc : sProp 𝕄) ⊢ (dat0 V c).arrays Fw := by
  unfold Pipeline.arrBufs Dat.arrays
  rw [arrRefs_eq, bigSep_three (by decide) (by decide), bigSep_W0]
  rw [hF 0, hF 1, hF 2, hF 3, hF 4]
  rw [(arr_whole0 0).set_eq_univ, (arr_whole0 2).set_eq_univ, (arr_whole0 4).set_eq_univ]
  iintro ⟨H8, H17, H18⟩
  ihave H8' := (pointsTo_share (PosShare.mem_left_op_right fullShare)).1 $$ H8
  icases H8' with ⟨H8l, H8r⟩
  ihave H17' := (pointsTo_share (PosShare.mem_left_op_right fullShare)).1 $$ H17
  icases H17' with ⟨H17l, H17r⟩
  isplitl [H8l]; · iexact H8l
  isplitl [H8r]; · iexact H8r
  isplitl [H17l]; · iexact H17l
  isplitl [H17r]; · iexact H17r
  iexact H18

/-- EXIT: the pipeline's arrays, the two windows on a feature array holding the same contents, are the three buffers
    whole at the full share again. -/
theorem arrBufs_of_arrays (c : Dev nD) (Vc : (b : Ref sig .tc) → Buf (Elt F) ((c : Thread nD τ).loc b))
    (Fw : (w : Fin cfg0.W) → Buf (Elt F) ((cfg0.win w).arr.view.loc (c : Thread nD τ)))
    (hF : ∀ w, Fw w = Vc (Pipeline.arrRef spec0 w)) :
    (dat0 V c).arrays Fw ⊢ (Pipeline.arrBufs spec0 c Vc : sProp 𝕄) := by
  unfold Pipeline.arrBufs Dat.arrays
  rw [arrRefs_eq, bigSep_three (by decide) (by decide), bigSep_W0]
  rw [hF 0, hF 1, hF 2, hF 3, hF 4]
  rw [(arr_whole0 0).set_eq_univ, (arr_whole0 2).set_eq_univ, (arr_whole0 4).set_eq_univ]
  iintro ⟨H8l, H8r, H17l, H17r, H18⟩
  isplitl [H8l H8r]
  · iapply (pointsTo_share (PosShare.mem_left_op_right fullShare)).2
    isplitl [H8l]
    · iexact H8l
    · iexact H8r
  isplitl [H17l H17r]
  · iapply (pointsTo_share (PosShare.mem_left_op_right fullShare)).2
    isplitl [H17l]
    · iexact H17l
    · iexact H17r
  iexact H18

/-- A core's unscoped buffers are the buffers behind the windows' arrays and the rest, the arrays distinct or not. -/
theorem unscopedBufs_split_shared (c : Dev nD) (Vc : (b : Ref sig .tc) → Buf (Elt F) ((c : Thread nD τ).loc b)) :
    (unscopedBufs c Vc : sProp 𝕄) = iprop(Pipeline.arrBufs spec0 c Vc ∗ Pipeline.unscopedRest spec0 c Vc) := by
  classical
  have hA : Finset.univ.image (Pipeline.arrRef spec0) ⊆ Finset.univ.filter fun b : Ref sig .tc => ¬ b.isScoped := fun b hb => by
    obtain ⟨w, -, rfl⟩ := Finset.mem_image.mp hb
    exact Finset.mem_filter.mpr ⟨Finset.mem_univ _, by simp [winFacts₀0.arr_unscoped w]⟩
  unfold unscopedBufs Pipeline.unscopedRest Pipeline.arrBufs
  rw [bigSep_sdiff_split hA]
  rfl

end Shares

end Cert.Kernel.Hand

end
-- ==== Proof.Kernel.Region.lean ====
/-
  The launch. @main is three segments — the host operations before the region, the region, the host operations after it —
  and the thread state between them is "every buffer of @main whole at the boundary's contents, the generator register at
  some state, nothing owed". The region takes the three buffers behind its windows' arrays out of that state, dealing the
  feature arrays' shares in halves, and puts them back at its exit with the output's array at what the write-back left.
  Concluded: every weakly fair execution terminates, with every buffer of @main at the last boundary's contents.
-/
import proofs.«161009_j25426206392656_1_alg».proof.Proof.Kernel.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the arrays hold at the region's exit -/

/-- Each window's array ends at the exit contents: an input's as entered, the output's at what the write-back left. -/
theorem hF0 (c : Dev nD) (w : Fin cfg0.W) : (dat0 (V1 m ρ) c).arrAt w cfg0.N = V2 m ρ c (Pipeline.arrRef spec0 w) :=
  match w with
  | ⟨0, _⟩ => (((dat0 (V1 m ρ) c).arrAt_in 0 rfl _).trans (A_eq (V1 m ρ) c 0)).trans (W2_of_ne m ρ c main_v8 (by decide)).symm
  | ⟨1, _⟩ => (((dat0 (V1 m ρ) c).arrAt_in 1 rfl _).trans (A_eq (V1 m ρ) c 1)).trans (W2_of_ne m ρ c main_v8 (by decide)).symm
  | ⟨2, _⟩ => (((dat0 (V1 m ρ) c).arrAt_in 2 rfl _).trans (A_eq (V1 m ρ) c 2)).trans (W2_of_ne m ρ c main_v17 (by decide)).symm
  | ⟨3, _⟩ => (((dat0 (V1 m ρ) c).arrAt_in 3 rfl _).trans (A_eq (V1 m ρ) c 3)).trans (W2_of_ne m ρ c main_v17 (by decide)).symm
  | ⟨4, _⟩ => (W2_out m ρ c).symm

/-- Every other buffer is as entered. -/
theorem hrest0 (c : Dev nD) : ∀ b, b ∉ Finset.univ.image (Pipeline.arrRef spec0) → V2 m ρ c b = V1 m ρ c b :=
  fun b hb => W2_of_ne m ρ c b fun e => hb (Finset.mem_image.mpr ⟨4, Finset.mem_univ _, e⟩)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over every buffer of @main. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region over the thread state: entered from every buffer at the contents after the first host stretch, left with
    the output's array at what the write-back left. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((pdats m ρ 0 c).arrays ((pdats m ρ 0 c).arrAt · 0) ∗ Pipeline.unscopedRest spec0 c (V1 m ρ c)) := by
      rw [unscopedBufs_split_shared c (V1 m ρ c)]
      exact sep_mono (arrays_of_arrBufs (V1 m ρ) c (V1 m ρ c) _ (fun w => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V1 m ρ) c)
    unfold Pipeline.ΦA
    iintro ⟨Hp, -, Hr⟩
    isplitl [Hr]; · iexact Hr
    iexact Hp
  hout c := by
    rw [Pipeline.ownSems0_none]
    refine (hout (V1 m ρ) c).trans ?_
    unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs c (V2 m ρ c) : sProp 𝕄) := by
      rw [unscopedBufs_split_shared c (V2 m ρ c)]
      refine sep_mono (arrBufs_of_arrays (V1 m ρ) c (V2 m ρ c) _ (hF0 m ρ c)) (Entails.of_eq ?_)
      unfold Pipeline.unscopedRest
      exact bigSep_congr fun b hb => by rw [hrest0 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub (hostOps0_fresh) (W0 m ρ)),
    .region (reg0 m ρ),
    .host (hseg hostOps1 hostOps1_sub (hostOps1_fresh) (W2 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    buffer of @main ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (StableHlo.after hostOps1 (W2 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the run read at the two argument arrays, which no host operation and no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m ρ c),
     (h c _ (mem_uc main_arg1 (by decide))).trans (W3_main_arg1 m ρ c)⟩) (run_all m ρ)

end Cert.Kernel.Hand

end
-- ==== Proof.KernelIdeal.Runs.lean ====
/-
  What the three runs of the kernel body share.

  The grid has 64 points, (batch, row tile, column tile) in row-major order. The body zeroes its one-cell scratch at the
  first point, adds the tile's sum of squared Gram differences to it at every point, and copies it to the one-cell output
  at the last point. Stated here: each input window's block at a point, read off its array as the region finds it; that an
  input's staging buffer holds that block at every point, fetched there or not; the two branch conditions in closed form
  over the point's number; where the output window is idle and where it is written back; and the staging and scratch
  buffers as the pipeline hands them to the body.
-/
import proofs.«161009_j25426206392656_1_alg».proof.Proof.Gen.KernelIdeal.Launch
import proofs.«161009_j25426206392656_1_alg».proof.Proof.Gen.KernelIdeal.Skeleton
import proofs.«161009_j25426206392656_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered: a parameter, fixed by the run
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first branch's condition, "all three coordinates are zero", as the body computes it. -/
abbrev cond0_0 (i : grid0.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at the first point only. -/
theorem hcond0_0 : ∀ t : Fin cfg0.N, cond0_0 (grid0.coords t) ↔ t.val % 64 = 0 :=
  (by decide +kernel : ∀ t : Fin grid0.N, cond0_0 (grid0.coords t) ↔ t.val % 64 = 0)

/-- The second branch's condition, "all three coordinates are three". -/
abbrev cond0_1 (i : grid0.Coords) : Prop := k0_cond2 i = 1#1
/-- It holds at the last point only. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last point the output window is idle: the body stores nothing into it, -/
theorem idleAt0_4 : ∀ t : Fin cfg0.N, ¬cond0_1 (grid0.coords t) → cfg0.idle 4 (grid0.coords t) = true := by decide +kernel
/-- and the pipeline does not write its block back. -/
theorem noFlush0_4 : ∀ t : Fin cfg0.N, ¬cond0_1 (grid0.coords t) → (cfg0.win 4).flush t = false := by decide +kernel
/-- At the last point it is live. -/
theorem liveAt0_4 : ∀ t : Fin cfg0.N, cond0_1 (grid0.coords t) → cfg0.idle 4 (grid0.coords t) = false := by decide +kernel

/-! ## The staging and scratch buffers as the body receives them -/

/-- The output window's one staging buffer, through which its contents are stated. -/
abbrev VO0_4 : View sig .tc .vmem S1x1 .f32 := (Memref.whole cc0_stg4_0 : Memref sig .tc .vmem S1x1 .f32).view
abbrev ms0_0 (t : Fin cfg0.N) : Memref sig .tc .vmem S1x4x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The scratch cell the body carries between points. -/
abbrev scM0_0 : Memref sig .tc .vmem S1x1 .f32 := Memref.whole cc0_scratch0
abbrev VS0_0 : View sig .tc .vmem S1x1 .f32 := scM0_0.view

/-- The region's plain invariant with the scratch cell owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KernelIdeal.RunA.lean ====
/-
  The body's run at the first grid point: the scratch cell, handed over at contents nobody names, is zeroed and then
  receives the first tile's sum; the output cell is left as it was found. The pieces the stores leave are found by the run.
-/
import proofs.«161009_j25426206392656_1_alg».proof.Proof.KernelIdeal.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the first point: on whole staging buffers — the four input blocks at their contents, the output cell at contents
    handed back untouched, the scratch cell at anything — the body runs to its end holding the inputs as they were, the
    output cell untouched, and the scratch cell with the run's pieces written. -/
noncomputable def kernelRun0_A (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 x3 : Vec F S1x4x1024 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__cosine_gram_sqdiff_kernel i arg3 harg3 arg4 harg4 arg5 harg5 arg6 harg6 arg7 harg7 arg8 harg8) K } := by
  refine ⟨[], ?_, fun xi4 E K => ?run⟩
  case run =>
    simp only [cc0__cosine_gram_sqdiff_kernel_eq_skeleton]; unfold cc0__cosine_gram_sqdiff_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KernelIdeal.RunB.lean ====
/-
  The body's run at a grid point that is neither first nor last: the scratch cell, at what the point before left, receives
  that plus this tile's sum; the output cell is left as it was found.
-/
import proofs.«161009_j25426206392656_1_alg».proof.Proof.KernelIdeal.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle point: the inputs at their contents, the output cell handed back untouched, the scratch cell at the
    contents `xs0` the point before left; the body ends with the scratch cell at the run's pieces. -/
noncomputable def kernelRun0_B (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 x3 : Vec F S1x4x1024 .f32) (xs0 : Vec F S1x1 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc0__cosine_gram_sqdiff_kernel i arg3 harg3 arg4 harg4 arg5 harg5 arg6 harg6 arg7 harg7 arg8 harg8) K } := by
  refine ⟨[], ?_, fun xi4 E K => ?run⟩
  case run =>
    simp only [cc0__cosine_gram_sqdiff_kernel_eq_skeleton]; unfold cc0__cosine_gram_sqdiff_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.KernelIdeal.RunC.lean ====
/-
  The body's run at the last grid point: the scratch cell receives the last tile's sum, and its contents are then stored
  into the output cell, whatever that held.
-/
import proofs.«161009_j25426206392656_1_alg».proof.Proof.KernelIdeal.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At the last point: the inputs at their contents, the output cell at anything, the scratch cell at what the point
    before left; the body ends with both cells at the run's pieces. -/
noncomputable def kernelRun0_C (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1x4x1024 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc0__cosine_gram_sqdiff_kernel i arg3 harg3 arg4 harg4 arg5 harg5 arg6 harg6 arg7 harg7 arg8 harg8) K } := by
  refine ⟨?_, ?_, fun E K => ?run⟩
  case run =>
    simp only [cc0__cosine_gram_sqdiff_kernel_eq_skeleton]; unfold cc0__cosine_gram_sqdiff_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.KernelIdeal.Body.lean ====
/-
  What the two cells hold after each grid point, the region's invariant that tracks the scratch cell, the pipeline's proof
  data, and the body obligation.

  After point n the scratch cell holds the sum of the tiles 0..n (as the runs' pieces read back); the output cell is idle
  until the last point, where it receives the scratch cell's contents. The two input windows on each feature array each
  hold half of that array's share, since the pipeline hands one array to both.
-/
import proofs.«161009_j25426206392656_1_alg».proof.Proof.KernelIdeal.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A's pieces for the scratch cell cover it. -/
theorem scover0_A_0 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 x3 : Vec F S1x4x1024 .f32) (y : S1x1.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S1x1.size (by sl_kernel_rfl) y

/-- What case A leaves in the scratch cell: its pieces read back. -/
def sout0_A_0 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 x3 : Vec F S1x4x1024 .f32) : Vec F S1x1 .f32 :=
  VS0_0.read (Elt F) (VS0_0.writes (Elt F) VS0_0.junk (kernelRun0_A c i arg3 harg3 arg4 harg4 arg5 harg5 arg6 harg6 arg7 harg7 arg8 harg8 hc0 hc1 x0 x1 x2 x3).2.1)

/-- What case A leaves in the output cell (nothing is stored: a placeholder nothing consults, the window being idle there). -/
def out0_A_4 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i)
    (x0 x1 x2 x3 : Vec F S1x4x1024 .f32) : Vec F S1x1 .f32 :=
  VO0_4.read (Elt F) (VO0_4.writes (Elt F) VO0_4.junk (kernelRun0_A c i arg3 harg3 arg4 harg4 arg5 harg5 arg6 harg6 arg7 harg7 arg8 harg8 hc0 hc1 x0 x1 x2 x3).1)

/-- Case B's pieces for the scratch cell cover it. -/
theorem scover0_B_0 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 x3 : Vec F S1x4x1024 .f32) (xs0 : Vec F S1x1 .f32) (y : S1x1.Idx) :
    ∃ pc ∈ (kernelRun0_B c i arg3 harg3 arg4 harg4 arg5 harg5 arg6 harg6 arg7 harg7 arg8 harg8 hc0 hc1 x0 x1 x2 x3 xs0).2.1, y ∈ pc.1.set :=
  View.cover_of_tiledL (kernelRun0_B c i arg3 harg3 arg4 harg4 arg5 harg5 arg6 harg6 arg7 harg7 arg8 harg8 hc0 hc1 x0 x1 x2 x3 xs0).2.1 S1x1.size (by sl_kernel_rfl) y

/-- What case B leaves in the scratch cell: its pieces read back. -/
def sout0_B_0 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 x3 : Vec F S1x4x1024 .f32) (xs0 : Vec F S1x1 .f32) : Vec F S1x1 .f32 :=
  VS0_0.read (Elt F) (VS0_0.writes (Elt F) VS0_0.junk (kernelRun0_B c i arg3 harg3 arg4 harg4 arg5 harg5 arg6 harg6 arg7 harg7 arg8 harg8 hc0 hc1 x0 x1 x2 x3 xs0).2.1)

/-- What case B leaves in the output cell (nothing is stored: a placeholder nothing consults, the window being idle there). -/
def out0_B_4 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i)
    (x0 x1 x2 x3 : Vec F S1x4x1024 .f32) (xs0 : Vec F S1x1 .f32) : Vec F S1x1 .f32 :=
  VO0_4.read (Elt F) (VO0_4.writes (Elt F) VO0_4.junk (kernelRun0_B c i arg3 harg3 arg4 harg4 arg5 harg5 arg6 harg6 arg7 harg7 arg8 harg8 hc0 hc1 x0 x1 x2 x3 xs0).1)

/-- Case C's pieces for the scratch cell cover it. -/
theorem scover0_C_0 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1x4x1024 .f32) (xs0 : Vec F S1x1 .f32) (y : S1x1.Idx) :
    ∃ pc ∈ (kernelRun0_C c i arg3 harg3 arg4 harg4 arg5 harg5 arg6 harg6 arg7 harg7 arg8 harg8 hc0 hc1 x0 x1 x2 x3 xs0).2.1, y ∈ pc.1.set :=
  View.cover_of_tiledL (kernelRun0_C c i arg3 harg3 arg4 harg4 arg5 harg5 arg6 harg6 arg7 harg7 arg8 harg8 hc0 hc1 x0 x1 x2 x3 xs0).2.1 S1x1.size (by sl_kernel_rfl) y

/-- What case C leaves in the scratch cell: its pieces read back. -/
def sout0_C_0 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1x4x1024 .f32) (xs0 : Vec F S1x1 .f32) : Vec F S1x1 .f32 :=
  VS0_0.read (Elt F) (VS0_0.writes (Elt F) VS0_0.junk (kernelRun0_C c i arg3 harg3 arg4 harg4 arg5 harg5 arg6 harg6 arg7 harg7 arg8 harg8 hc0 hc1 x0 x1 x2 x3 xs0).2.1)

/-- Case C's pieces for the output cell cover it. -/
theorem cover0_C_4 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1x4x1024 .f32) (xs0 : Vec F S1x1 .f32) (y : S1x1.Idx) :
    ∃ pc ∈ (kernelRun0_C c i arg3 harg3 arg4 harg4 arg5 harg5 arg6 harg6 arg7 harg7 arg8 harg8 hc0 hc1 x0 x1 x2 x3 xs0).1, y ∈ pc.1.set :=
  View.cover_of_tiledL (kernelRun0_C c i arg3 harg3 arg4 harg4 arg5 harg5 arg6 harg6 arg7 harg7 arg8 harg8 hc0 hc1 x0 x1 x2 x3 xs0).1 S1x1.size (by sl_kernel_rfl) y

/-- What case C leaves in the output cell. -/
def out0_C_4 (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i)
    (x0 x1 x2 x3 : Vec F S1x4x1024 .f32) (xs0 : Vec F S1x1 .f32) : Vec F S1x1 .f32 :=
  VO0_4.read (Elt F) (VO0_4.writes (Elt F) VO0_4.junk (kernelRun0_C c i arg3 harg3 arg4 harg4 arg5 harg5 arg6 harg6 arg7 harg7 arg8 harg8 hc0 hc1 x0 x1 x2 x3 xs0).1)

/-! ## The accumulation, point by point -/

theorem N64 : cfg0.N = 64 := N_0

/-- What the output cell and the scratch cell hold after the body at position `n`: the case the closed forms select there,
    run at the point's buffers and input blocks, on what the point before left in the scratch cell. -/
def outsAt0 (c : Dev nD) : (n : ℕ) → n < cfg0.N → Vec F S1x1 .f32 × Vec F S1x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => by have := (hcond0_1 ⟨0, hn⟩).mp h; (try dsimp only at this); omega) (iblk V c 0 ⟨0, hn⟩) (iblk V c 1 ⟨0, hn⟩) (iblk V c 2 ⟨0, hn⟩) (iblk V c 3 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => by have := (hcond0_1 ⟨0, hn⟩).mp h; (try dsimp only at this); omega) (iblk V c 0 ⟨0, hn⟩) (iblk V c 1 ⟨0, hn⟩) (iblk V c 2 ⟨0, hn⟩) (iblk V c 3 ⟨0, hn⟩))
  | n + 1, hn =>
    if h1 : (n + 1) % 64 = 63 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => by have := (hcond0_0 ⟨n + 1, hn⟩).mp h; have hN : n + 1 < 64 := lt_of_lt_of_eq hn N64; (try dsimp only at this); omega) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => by have := (hcond0_0 ⟨n + 1, hn⟩).mp h; have hN : n + 1 < 64 := lt_of_lt_of_eq hn N64; (try dsimp only at this); omega) ((hcond0_1 ⟨n + 1, hn⟩).mpr h1) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2)
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => by have := (hcond0_0 ⟨n + 1, hn⟩).mp h; have hN : n + 1 < 64 := lt_of_lt_of_eq hn N64; (try dsimp only at this); omega) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => by have := (hcond0_0 ⟨n + 1, hn⟩).mp h; have hN : n + 1 < 64 := lt_of_lt_of_eq hn N64; (try dsimp only at this); omega) (fun h => h1 ((hcond0_1 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2)

/-- `outsAt0` at the first point. -/
theorem outsAt0_A (c : Dev nD) (t : Fin cfg0.N) (h0 : t.val = 0) (hc0 : cond0_0 (grid0.coords t)) (hc1 : ¬cond0_1 (grid0.coords t)) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk V c 0 t) (iblk V c 1 t) (iblk V c 2 t) (iblk V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk V c 0 t) (iblk V c 1 t) (iblk V c 2 t) (iblk V c 3 t)) := by
  obtain ⟨n, hn⟩ := t
  cases n with
  | zero => exact rfl
  | succ n => exact absurd h0 (Nat.succ_ne_zero n)

/-- `outsAt0` at a middle point: over what the point before left. -/
theorem outsAt0_B (c : Dev nD) (t : Fin cfg0.N) (h0 : t.val ≠ 0) (h1 : ¬t.val % 64 = 63) (hc0 : ¬cond0_0 (grid0.coords t)) (hc1 : ¬cond0_1 (grid0.coords t)) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk V c 0 t) (iblk V c 1 t) (iblk V c 2 t) (iblk V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk V c 0 t) (iblk V c 1 t) (iblk V c 2 t) (iblk V c 3 t) (outsAt0 V c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : t.val ≠ 0) (h1 : t.val % 64 = 63) (hc0 : ¬cond0_0 (grid0.coords t)) (hc1 : cond0_1 (grid0.coords t)) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk V c 0 t) (iblk V c 1 t) (iblk V c 2 t) (iblk V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk V c 0 t) (iblk V c 1 t) (iblk V c 2 t) (iblk V c 3 t) (outsAt0 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant that tracks the scratch cell -/

/-- Before position `n`: before the first point the plain invariant (the scratch cell at anything); afterwards the scratch
    cell at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2)) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2)) ∗ (∃ r, prngReg c r)) := by
  cases n with
  | zero => exact absurd rfl hz
  | succ n => rfl

/-! ## The pipeline's proof data -/

/-- The proof data on core `c`: the arrays as the region finds them; after the body at point `t` each input's buffer at its
    block and the output's at the accumulation's first component; the tracking invariant; nothing owed; each feature
    array's share dealt in halves to the two windows on it, the output's array held whole. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk V c 0 t := by dsimp only [dat0]
theorem after0_1 (c : Dev nD) (t : Fin cfg0.N) : (dat0 V c).after 1 t = iblk V c 1 t := by dsimp only [dat0]
theorem after0_2 (c : Dev nD) (t : Fin cfg0.N) : (dat0 V c).after 2 t = iblk V c 2 t := by dsimp only [dat0]
theorem after0_3 (c : Dev nD) (t : Fin cfg0.N) : (dat0 V c).after 3 t = iblk V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk V c 0 t :=
  before0_0_of V (dat0 V c) (A_eq V c 0) (after0_0 V c) t d
theorem before0_1 (c : Dev nD) (t : Fin cfg0.N) (d) : (dat0 V c).before 1 t d = iblk V c 1 t :=
  before0_1_of V (dat0 V c) (A_eq V c 1) (after0_1 V c) t d
theorem before0_2 (c : Dev nD) (t : Fin cfg0.N) (d) : (dat0 V c).before 2 t d = iblk V c 2 t :=
  before0_2_of V (dat0 V c) (A_eq V c 2) (after0_2 V c) t d
theorem before0_3 (c : Dev nD) (t : Fin cfg0.N) (d) : (dat0 V c).before 3 t d = iblk V c 3 t :=
  before0_3_of V (dat0 V c) (A_eq V c 3) (after0_3 V c) t d

/-! ## The body obligation, at a generic point -/

def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' buffers hold their blocks; the closed forms say which case the point is in; the
    invariant hands the body the scratch cell at what the point before left (at anything at the first point) and takes it
    back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt N64
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  by_cases h1 : t.val % 64 = 63
  · -- the last point
    have hz : t.val ≠ 0 := by omega
    have hc0 : ¬cond0_0 (grid0.coords t) := fun h => by have := (hcond0_0 t).mp h; omega
    have hc1 : cond0_1 (grid0.coords t) := (hcond0_1 t).mpr h1
    rw [show (dat0 V c).leavesExact 4 t = owns (c : Thread nD τ) (ms0_4 t) fullShare ((dat0 V c).after 4 t) from by
      unfold Dat.leavesExact; rw [liveAt0_4 t hc1], after0_4]
    rw [outsAt0_C V c t hz h1 hc0 hc1]
    unfold out0_C_4 sout0_C_0; (try dsimp only)
    rw [PhiS_castSucc V c t, PhiS_pos V c _ _ hz]
    iintro ⟨⟨HS0, Hg⟩, Ho, ⟨%d0, H0⟩, ⟨%d1, H1⟩, ⟨%d2, H2⟩, ⟨%d3, H3⟩, ⟨%d4, H4⟩⟩
    iapply ((kernelRun0_C c (grid0.coords t) _ _ _ _ _ _ _ _ _ _ _ _ hc0 hc1 (iblk V c 0 t) (iblk V c 1 t) (iblk V c 2 t) (iblk V c 3 t) _).2.2 Set.univ _)
    isplitl [H0]; · iexact H0
    isplitl [H1]; · iexact H1
    isplitl [H2]; · iexact H2
    isplitl [H3]; · iexact H3
    isplitl [H4]; · iexists _; iexact H4
    isplitl [HS0]; · iexact HS0
    iintro ⟨H0, H1, H2, H3, ⟨%e4, H4⟩, ⟨%es0, HS0⟩⟩
    isplitl [HS0 Hg]
    · isplitl [HS0]
      · unfold owns; iexists _; isplitr
        swap; · iexact HS0
        ipureintro; exact View.read_writes_of_cover _ _ _ _ _ (scover0_C_0 c _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_C_4 c _ _ _ _ _ _ _ _ _ _ _ _ _ _ _ _ _ _ _ _)
  · have hc1 : ¬cond0_1 (grid0.coords t) := fun h => h1 ((hcond0_1 t).mp h)
    rw [Dat.leavesExact_idle (dat0 V c) 4 t (idleAt0_4 t hc1) (noFlush0_4 t hc1)]
    by_cases hz : t.val = 0
    · -- the first point
      have hc0 : cond0_0 (grid0.coords t) := (hcond0_0 t).mpr (by omega)
      rw [outsAt0_A V c t hz hc0 hc1]
      unfold sout0_A_0; (try dsimp only)
      rw [PhiS_castSucc V c t, PhiS_zero V c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ hc0 hc1 (iblk V c 0 t) (iblk V c 1 t) (iblk V c 2 t) (iblk V c 3 t)).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4
    · -- a middle point
      have hc0 : ¬cond0_0 (grid0.coords t) := fun h => by have := (hcond0_0 t).mp h; omega
      rw [outsAt0_B V c t hz h1 hc0 hc1]
      unfold sout0_B_0; (try dsimp only)
      rw [PhiS_castSucc V c t, PhiS_pos V c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ hc0 hc1 (iblk V c 0 t) (iblk V c 1 t) (iblk V c 2 t) (iblk V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dat0 (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the plain one back: the scratch cell's contents are forgotten. -/
theorem hout (c : Dev nD) : (dat0 V c).Φ (Fin.last cfg0.N) ⊢ Pipeline.ΦA spec0 c := by
  have ht : (Fin.last cfg0.N).val ≠ 0 := by rw [Fin.val_last]; have : cfg0.N = 64 := N64; omega
  rw [show (dat0 V c).Φ (Fin.last cfg0.N) = PhiS V c (Fin.last cfg0.N).val (Nat.le_of_lt_succ (Fin.last cfg0.N).isLt) from rfl, PhiS_pos V c _ _ ht, PhiA0_eq]
  iintro ⟨HS0, Hg⟩
  isplitl [HS0]
  · iexists _; iexact HS0
  iexact Hg

end Cert.KernelIdeal.Hand

end
-- ==== Proof.KernelIdeal.Run.lean ====
/-
  The whole run of the program: the buffer contents at each boundary of @main (after the host operations before the region,
  at the region's exit, after the host operations that follow it), the region as a segment whose entry deals each feature
  array's full share in halves to the two windows reading it and whose exit puts the halves together again, and the launch:
  every weakly fair execution terminates with every buffer of @main at the last boundary's contents.
-/
import proofs.«161009_j25426206392656_1_alg».proof.Proof.KernelIdeal.Body
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- At launch. -/
abbrev W0 : Dev nD → Valuation τ sig (Elt F) := fun c b => (s₀ m ρ).mem ((c : Dev nD), b)
/-- After the host operations before the region (the region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

open Classical in
/-- At the region's exit: the output's array at what the one write-back left, every other buffer as entered. -/
def W2 (c : Dev nD) : Valuation τ sig (Elt F) := fun b =>
  if h : Proc.devRef .tc main_v18 = b then
    cast (congrArg (fun b' : DevRef τ sig => b'.ty.Contents (Elt F)) h) ((dat0 (V1 m ρ) c).arrAt 4 cfg0.N)
  else W1 m ρ c b
theorem W2_out (c : Dev nD) : W2 m ρ c (Proc.devRef .tc main_v18) = (dat0 (V1 m ρ) c).arrAt 4 cfg0.N := by
  unfold W2; rw [dif_pos rfl]; rfl
theorem W2_of_ne (c : Dev nD) (b : Ref sig .tc) (hb : main_v18 ≠ b) : W2 m ρ c (Proc.devRef .tc b) = W1 m ρ c (Proc.devRef .tc b) := by
  unfold W2; rw [dif_neg]; exact fun e => hb (Proc.devRef_injective _ e)
abbrev V2 : (c : Dev nD) → (b : Ref sig .tc) → Buf (Elt F) ((c : Thread nD τ).loc b) := fun c b => W2 m ρ c b
/-- After the host operations that follow the region (the return). -/
abbrev W3 : Dev nD → Valuation τ sig (Elt F) := fun c => StableHlo.after hostOps1 (W2 m ρ c)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## Dealing the arrays' shares -/

/-- The distinct buffers behind the windows' arrays. -/
theorem arrRefs_eq : Finset.univ.image (Pipeline.arrRef spec0) = {main_v8, main_v17, main_v18} := by decide

/-- A conjunction over three distinct indices, in the proof mode's syntax. -/
theorem bigSep_three {I : Type} [DecidableEq I] {a b d : I} (hab : a ∉ ({b, d} : Finset I)) (hbd : b ∉ ({d} : Finset I)) (Φ : I → sProp 𝕄) :
    bigSep ({a, b, d} : Finset I) Φ = iprop(Φ a ∗ Φ b ∗ Φ d) := by
  rw [bigSep_insert hab, bigSep_insert hbd, bigSep_singleton]; rfl

section Shares
variable (V : (c : Dev nD) → (b : Ref sig .tc) → Buf (Elt F) ((c : Thread nD τ).loc b))

/-- ENTRY: the three buffers behind the arrays, each whole at the full share, make the pipeline's arrays — each
    feature array's share cut in halves, one for each of the two windows on it. -/
theorem arrays_of_arrBufs (c : Dev nD) (Vc : (b : Ref sig .tc) → Buf (Elt F) ((c : Thread nD τ).loc b))
    (Fw : (w : Fin cfg0.W) → Buf (Elt F) ((cfg0.win w).arr.view.loc (c : Thread nD τ)))
    (hF : ∀ w, Fw w = Vc (Pipeline.arrRef spec0 w)) :
    (Pipeline.arrBufs spec0 c Vc : sProp 𝕄) ⊢ (dat0 V c).arrays Fw := by
  unfold Pipeline.arrBufs Dat.arrays
  rw [arrRefs_eq, bigSep_three (by decide) (by decide), bigSep_W0]
  rw [hF 0, hF 1, hF 2, hF 3, hF 4]
  rw [(arr_whole0 0).set_eq_univ, (arr_whole0 2).set_eq_univ, (arr_whole0 4).set_eq_univ]
  iintro ⟨H8, H17, H18⟩
  ihave H8' := (pointsTo_share (PosShare.mem_left_op_right fullShare)).1 $$ H8
  icases H8' with ⟨H8l, H8r⟩
  ihave H17' := (pointsTo_share (PosShare.mem_left_op_right fullShare)).1 $$ H17
  icases H17' with ⟨H17l, H17r⟩
  isplitl [H8l]; · iexact H8l
  isplitl [H8r]; · iexact H8r
  isplitl [H17l]; · iexact H17l
  isplitl [H17r]; · iexact H17r
  iexact H18

/-- EXIT: the pipeline's arrays, the two windows on a feature array holding the same contents, are the three buffers
    whole at the full share again. -/
theorem arrBufs_of_arrays (c : Dev nD) (Vc : (b : Ref sig .tc) → Buf (Elt F) ((c : Thread nD τ).loc b))
    (Fw : (w : Fin cfg0.W) → Buf (Elt F) ((cfg0.win w).arr.view.loc (c : Thread nD τ)))
    (hF : ∀ w, Fw w = Vc (Pipeline.arrRef spec0 w)) :
    (dat0 V c).arrays Fw ⊢ (Pipeline.arrBufs spec0 c Vc : sProp 𝕄) := by
  unfold Pipeline.arrBufs Dat.arrays
  rw [arrRefs_eq, bigSep_three (by decide) (by decide), bigSep_W0]
  rw [hF 0, hF 1, hF 2, hF 3, hF 4]
  rw [(arr_whole0 0).set_eq_univ, (arr_whole0 2).set_eq_univ, (arr_whole0 4).set_eq_univ]
  iintro ⟨H8l, H8r, H17l, H17r, H18⟩
  isplitl [H8l H8r]
  · iapply (pointsTo_share (PosShare.mem_left_op_right fullShare)).2
    isplitl [H8l]
    · iexact H8l
    · iexact H8r
  isplitl [H17l H17r]
  · iapply (pointsTo_share (PosShare.mem_left_op_right fullShare)).2
    isplitl [H17l]
    · iexact H17l
    · iexact H17r
  iexact H18

/-- A core's unscoped buffers are the buffers behind the windows' arrays and the rest, the arrays distinct or not. -/
theorem unscopedBufs_split_shared (c : Dev nD) (Vc : (b : Ref sig .tc) → Buf (Elt F) ((c : Thread nD τ).loc b)) :
    (unscopedBufs c Vc : sProp 𝕄) = iprop(Pipeline.arrBufs spec0 c Vc ∗ Pipeline.unscopedRest spec0 c Vc) := by
  classical
  have hA : Finset.univ.image (Pipeline.arrRef spec0) ⊆ Finset.univ.filter fun b : Ref sig .tc => ¬ b.isScoped := fun b hb => by
    obtain ⟨w, -, rfl⟩ := Finset.mem_image.mp hb
    exact Finset.mem_filter.mpr ⟨Finset.mem_univ _, by simp [winFacts₀0.arr_unscoped w]⟩
  unfold unscopedBufs Pipeline.unscopedRest Pipeline.arrBufs
  rw [bigSep_sdiff_split hA]
  rfl

end Shares

end Cert.KernelIdeal.Hand

end
-- ==== Proof.KernelIdeal.Region.lean ====
/-
  The launch. @main is three segments — the host operations before the region, the region, the host operations after it —
  and the thread state between them is "every buffer of @main whole at the boundary's contents, the generator register at
  some state, nothing owed". The region takes the three buffers behind its windows' arrays out of that state, dealing the
  feature arrays' shares in halves, and puts them back at its exit with the output's array at what the write-back left.
  Concluded: every weakly fair execution terminates, with every buffer of @main at the last boundary's contents.
-/
import proofs.«161009_j25426206392656_1_alg».proof.Proof.KernelIdeal.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the arrays hold at the region's exit -/

/-- Each window's array ends at the exit contents: an input's as entered, the output's at what the write-back left. -/
theorem hF0 (c : Dev nD) (w : Fin cfg0.W) : (dat0 (V1 m ρ) c).arrAt w cfg0.N = V2 m ρ c (Pipeline.arrRef spec0 w) :=
  match w with
  | ⟨0, _⟩ => (((dat0 (V1 m ρ) c).arrAt_in 0 rfl _).trans (A_eq (V1 m ρ) c 0)).trans (W2_of_ne m ρ c main_v8 (by decide)).symm
  | ⟨1, _⟩ => (((dat0 (V1 m ρ) c).arrAt_in 1 rfl _).trans (A_eq (V1 m ρ) c 1)).trans (W2_of_ne m ρ c main_v8 (by decide)).symm
  | ⟨2, _⟩ => (((dat0 (V1 m ρ) c).arrAt_in 2 rfl _).trans (A_eq (V1 m ρ) c 2)).trans (W2_of_ne m ρ c main_v17 (by decide)).symm
  | ⟨3, _⟩ => (((dat0 (V1 m ρ) c).arrAt_in 3 rfl _).trans (A_eq (V1 m ρ) c 3)).trans (W2_of_ne m ρ c main_v17 (by decide)).symm
  | ⟨4, _⟩ => (W2_out m ρ c).symm

/-- Every other buffer is as entered. -/
theorem hrest0 (c : Dev nD) : ∀ b, b ∉ Finset.univ.image (Pipeline.arrRef spec0) → V2 m ρ c b = V1 m ρ c b :=
  fun b hb => W2_of_ne m ρ c b fun e => hb (Finset.mem_image.mpr ⟨4, Finset.mem_univ _, e⟩)

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over every buffer of @main. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The region over the thread state: entered from every buffer at the contents after the first host stretch, left with
    the output's array at what the write-back left. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs c (V1 m ρ c) : sProp 𝕄)
        ⊢ iprop((pdats m ρ 0 c).arrays ((pdats m ρ 0 c).arrAt · 0) ∗ Pipeline.unscopedRest spec0 c (V1 m ρ c)) := by
      rw [unscopedBufs_split_shared c (V1 m ρ c)]
      exact sep_mono (arrays_of_arrBufs (V1 m ρ) c (V1 m ρ c) _ (fun w => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin (V1 m ρ) c)
    unfold Pipeline.ΦA
    iintro ⟨Hp, -, Hr⟩
    isplitl [Hr]; · iexact Hr
    iexact Hp
  hout c := by
    rw [Pipeline.ownSems0_none]
    refine (hout (V1 m ρ) c).trans ?_
    unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N) ∗ Pipeline.unscopedRest spec0 c (V1 m ρ c))
        ⊢ (unscopedBufs c (V2 m ρ c) : sProp 𝕄) := by
      rw [unscopedBufs_split_shared c (V2 m ρ c)]
      refine sep_mono (arrBufs_of_arrays (V1 m ρ) c (V2 m ρ c) _ (hF0 m ρ c)) (Entails.of_eq ?_)
      unfold Pipeline.unscopedRest
      exact bigSep_congr fun b hb => by rw [hrest0 m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub (hostOps0_fresh) (W0 m ρ)),
    .region (reg0 m ρ),
    .host (hseg hostOps1 hostOps1_sub (hostOps1_fresh) (W2 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and every
    buffer of @main ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (StableHlo.after hostOps1 (W2 m ρ c)) ∗ R c)
        ⊢ iprop(Tₙ m ρ c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- THE FRAME: the run read at the two argument arrays, which no host operation and no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W3_main_arg0 m ρ c),
     (h c _ (mem_uc main_arg1 (by decide))).trans (W3_main_arg1 m ρ c)⟩) (run_all m ρ)

end Cert.KernelIdeal.Hand

end
-- ==== Proof.OutArray.lean ====
/-
  The output array after the region. The output window is one cell, its block index (0, 0) at every grid point, and the
  pipeline writes it back once, at the last point; so the array ends holding what the body left in the output cell there,
  the first component of the accumulation at point 63.
-/
import proofs.«161009_j25426206392656_1_alg».proof.Proof.KernelIdeal.Body
import Idealize.ShloMosaic.Lib.Pipeline.Value

set_option maxRecDepth 16384

noncomputable section

namespace Cert.GramLoss.KV

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

theorem N63 : 63 < cfg0.N := by rw [N64]; decide

/-- The output window's block index is (0, 0) at every point. -/
theorem out_index : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- The output is written back at point 63 only. -/
theorem flush_iff (t : Fin cfg0.N) : (cfg0.win 4).flush t = true ↔ t.val = 63 := by
  rw [flush0_4 t]
  have h : t.val < 64 := lt_of_lt_of_eq t.isLt N64
  omega

/-- What that write-back writes is the accumulation's output component, read through the block. -/
theorem flushed_eq (c : Dev nD) (t : Fin cfg0.N) (hf : (cfg0.win 4).flush t = true) :
    (dat0 V c).flushed 4 t = ((cfg0.win 4).blk t).view.read (Elt F) ((outsAt0 V c 63 N63).1) := by
  have ht : t = ⟨63, N63⟩ := Fin.ext ((flush_iff t).mp hf)
  subst ht
  show (cfg0.win 4).cut (grid0.coords _) ((dat0 V c).after 4 _) = _
  rw [after0_4]
  obtain ⟨e0, e1⟩ := out_index ⟨63, N63⟩
  funext j
  show (outsAt0 V c 63 N63).1 j = (outsAt0 V c 63 N63).1 (((cfg0.win 4).blk ⟨63, N63⟩).view.emb j)
  refine congrArg (outsAt0 V c 63 N63).1 (?_ : (j : S1x1.Idx) = ((cfg0.win 4).blk ⟨63, N63⟩).view.emb j)
  funext a; apply Fin.ext
  match a with
  | ⟨0, _⟩ => show (j 0).val = win0_4.index ⟨63, N63⟩ (0 : Fin 2) * 1 + 1 * (j 0).val; omega
  | ⟨1, _⟩ => show (j 1).val = win0_4.index ⟨63, N63⟩ (1 : Fin 2) * 1 + 1 * (j 1).val; omega

/-- An index of the array is in point `t`'s block iff each coordinate is in the block's range on its axis. -/
theorem mem_blk (t : Fin cfg0.N) (i : S1x1.Idx) :
    i ∈ ((cfg0.win 4).blk t).view.set ↔ ∀ a : Fin 2, win0_4.index t a * S1x1.size a ≤ (i a).val ∧ (i a).val < win0_4.index t a * S1x1.size a + S1x1.size a := by
  show i ∈ ((View.whole main_v18).slice (win0_4.rect t)).set ↔ _
  rw [View.set_slice_whole, Rect.mem_set_unit]
  exact Iff.rfl

/-- The one block covers the one-cell array. -/
theorem cover (i : S1x1.Idx) : ∃ t : Fin cfg0.N, (cfg0.win 4).flush t = true ∧ i ∈ ((cfg0.win 4).blk t).view.set := by
  refine ⟨⟨63, N63⟩, (flush_iff _).mpr rfl, ?_⟩
  rw [mem_blk]
  obtain ⟨e0, e1⟩ := out_index ⟨63, N63⟩
  intro a
  match a with
  | ⟨0, _⟩ =>
    have hi : (i 0).val < 1 := (i 0).isLt
    show win0_4.index ⟨63, N63⟩ (0 : Fin 2) * 1 ≤ (i 0).val ∧ (i 0).val < win0_4.index ⟨63, N63⟩ (0 : Fin 2) * 1 + 1
    omega
  | ⟨1, _⟩ =>
    have hi : (i 1).val < 1 := (i 1).isLt
    show win0_4.index ⟨63, N63⟩ (1 : Fin 2) * 1 ≤ (i 1).val ∧ (i 1).val < win0_4.index ⟨63, N63⟩ (1 : Fin 2) * 1 + 1
    omega

/-- THE OUTPUT ARRAY after the region: the accumulation's output component at the last point. -/
theorem out_array (c : Dev nD) : (dat0 V c).arrAt 4 cfg0.N = (outsAt0 V c 63 N63).1 :=
  (dat0 V c).arrAt_eq_of_cover 4 _ (fun t hf => flushed_eq V c t hf) (fun i => cover i)

end Cert.GramLoss.KV

end
-- ==== Proof.GramSpec.lean ====
/-
  The quantity both programs compute, stated once over the extended reals.

  For a feature array `z` of shape batch × channel × position (4 × 4 × 4096) the Gram entry of positions `n`, `m` in
  batch `b` is the inner product over the four channels, `gram z b n m = ∑ c, z[b,c,n] · z[b,c,m]`. The loss
  numerator is the sum over every batch and every pair of positions of the squared difference of the two Gram
  entries (`total`). The 4096 positions split into four tiles of 1024 (`pos i n = 1024·i + n`), and the same sum
  taken tile pair by tile pair (`tile`) is the numerator again (`total_eq_tiles`): a regrouping of one finite sum,
  which needs only that addition of extended reals is commutative and associative, so it holds at infinite
  entries too.
-/
import Idealize.ShloMosaic.PureOps.Ideal
import Idealize.ShloMosaic.Lib.ValueIdx

noncomputable section

namespace Cert.GramLoss

open Idealize.ShloMosaic Idealize.ShloMosaic.ValueIdx

/-- A feature array, batch × channel × position, of extended reals. -/
abbrev Feat : Type := FVec Ideal (⟨3, ![4, 4, 4096]⟩ : Shape) .f32

/-- The Gram entry of positions `n`, `m` in batch `b`: the inner product over the four channels. -/
def gram (z : Feat) (b : Fin 4) (n m : Fin 4096) : EReal := ∑ c : Fin 4, z (ix3 b c n) * z (ix3 b c m)

/-- The squared difference of the two arrays' Gram entries. -/
def sqDiff (zp zs : Feat) (b : Fin 4) (n m : Fin 4096) : EReal :=
  (gram zp b n m - gram zs b n m) * (gram zp b n m - gram zs b n m)

/-- The loss numerator: every batch, every pair of positions. -/
def total (zp zs : Feat) : EReal := ∑ b : Fin 4, ∑ n : Fin 4096, ∑ m : Fin 4096, sqDiff zp zs b n m

/-- Position `n` of tile `i`. -/
def pos (i : Fin 4) (n : Fin 1024) : Fin 4096 := ⟨1024 * i.val + n.val, by omega⟩

/-- The part of the numerator of batch `b` over the tile pair `(i, j)`. -/
def tile (zp zs : Feat) (b i j : Fin 4) : EReal := ∑ n : Fin 1024, ∑ m : Fin 1024, sqDiff zp zs b (pos i n) (pos j m)

/-- Tile and offset against position: `(i, n) ↦ 1024·i + n` is a bijection of `Fin 4 × Fin 1024` with `Fin 4096`
(quotient and remainder by 1024 the other way). -/
def posEquiv : Fin 4 × Fin 1024 ≃ Fin 4096 where
  toFun p := pos p.1 p.2
  invFun x := (⟨x.val / 1024, by omega⟩, ⟨x.val % 1024, by omega⟩)
  left_inv p := by
    rcases p with ⟨⟨i, hi⟩, ⟨n, hn⟩⟩
    refine Prod.ext (Fin.ext ?_) (Fin.ext ?_)
    · show (1024 * i + n) / 1024 = i
      omega
    · show (1024 * i + n) % 1024 = n
      omega
  right_inv x := by
    refine Fin.ext ?_
    show 1024 * (x.val / 1024) + x.val % 1024 = x.val
    omega

/-- A sum over the 4096 positions is the sum over the four tiles of the sums over each tile's 1024 positions: the
same terms, reindexed along `posEquiv`. Only commutativity and associativity of the addition are used. -/
theorem sum_pos {M : Type} [AddCommMonoid M] (f : Fin 4096 → M) :
    ∑ n : Fin 4096, f n = ∑ i : Fin 4, ∑ n : Fin 1024, f (pos i n) := by
  rw [← Fintype.sum_prod_type' (f := fun i n => f (pos i n))]
  exact (Fintype.sum_equiv posEquiv (fun p => f (pos p.1 p.2)) f (fun _ => rfl)).symm

/-- The numerator is the sum of its tile pairs. -/
theorem total_eq_tiles (zp zs : Feat) : total zp zs = ∑ b : Fin 4, ∑ i : Fin 4, ∑ j : Fin 4, tile zp zs b i j := by
  unfold total tile
  refine Finset.sum_congr rfl fun b _ => ?_
  -- split the row position, then under it the column position, then bring the two tile sums to the front
  rw [sum_pos (fun n => ∑ m : Fin 4096, sqDiff zp zs b n m)]
  refine Finset.sum_congr rfl fun i _ => ?_
  refine Eq.trans ?_ (Finset.sum_comm (s := (Finset.univ : Finset (Fin 1024))) (t := (Finset.univ : Finset (Fin 4)))
    (f := fun n j => ∑ m : Fin 1024, sqDiff zp zs b (pos i n) (pos j m)))
  refine Finset.sum_congr rfl fun n _ => ?_
  exact sum_pos (fun m => sqDiff zp zs b (pos i n) m)

end Cert.GramLoss

end
-- ==== Proof.TilePayload.lean ====
/-
  The kernel body's arithmetic, read over the extended reals.

  One grid step loads four blocks of shape 1 × 4 × 1024 (channel × position, under a leading unit axis): two blocks
  `p`, `q` of the first feature array and two blocks `r`, `s` of the second. It contracts the channel axis of `p`
  against `q` and of `r` against `s` into a zero accumulator, which gives the two 1024 × 1024 Gram tiles
  `gramB p q` and `gramB r s`; it subtracts and squares them entrywise, adds up all 1024 · 1024 entries, and adds that
  total to the running value. So the stored value is the running value plus `tileB p q r s`; the first step's stored
  value is the zero word. Nothing here uses more of the addition than that `0` is its identity.
-/
import proofs.«161009_j25426206392656_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.GramLoss.Tile

open Cert.KernelIdeal Cert.KernelIdeal.Gen Idealize.ShloMosaic Idealize.ShloMosaic.ValueIdx

/-- The Gram entry of two blocks: the inner product over the four channels of position n of p and position m of q. -/
def gramB (p q : Vec Ideal S1x4x1024 .f32) (n m : Fin 1024) : EReal := ∑ c : Fin 4, p (ix3 0 c n) * q (ix3 0 c m)

/-- The tile's sum of squared Gram differences. -/
def tileB (p q r s : Vec Ideal S1x4x1024 .f32) : EReal :=
  ∑ n : Fin 1024, ∑ m : Fin 1024, (gramB p q n m - gramB r s n m) * (gramB p q n m - gramB r s n m)

/-! ## The contraction's operand indices -/

/-- On the contracted axis (axis 0) the left operand reads the contraction position. -/
theorem lhs_contr (i : S1024x1024.Idx) (q : dot_S4x1024_S4x1024_S1024x1024_0_0_1_1_n_n.contr.Idx) :
    (dot_S4x1024_S4x1024_S1024x1024_0_0_1_1_n_n.lhsIdx i q 0).val = (q ⟨0, by decide⟩).val :=
  dot_S4x1024_S4x1024_S1024x1024_0_0_1_1_n_n.lhsIdx_val_of_single rfl i q

/-- On its free axis (axis 1) the left operand reads the result's row. -/
theorem lhs_free (i : S1024x1024.Idx) (q : dot_S4x1024_S4x1024_S1024x1024_0_0_1_1_n_n.contr.Idx) :
    (dot_S4x1024_S4x1024_S1024x1024_0_0_1_1_n_n.lhsIdx i q 1).val = (i 0).val := by
  unfold DotDims.lhsIdx
  rw [dif_neg (show ¬(1 : Fin S4x1024.rank) ∈ dot_S4x1024_S4x1024_S1024x1024_0_0_1_1_n_n.lhsBatch by decide), dif_pos (show (1 : Fin S4x1024.rank) ∈ dot_S4x1024_S4x1024_S1024x1024_0_0_1_1_n_n.lhsNonContracting by decide)]
  rfl

/-- On the contracted axis (axis 0) the right operand reads the contraction position. -/
theorem rhs_contr (i : S1024x1024.Idx) (q : dot_S4x1024_S4x1024_S1024x1024_0_0_1_1_n_n.contr.Idx) :
    (dot_S4x1024_S4x1024_S1024x1024_0_0_1_1_n_n.rhsIdx i q 0).val = (q ⟨0, by decide⟩).val :=
  dot_S4x1024_S4x1024_S1024x1024_0_0_1_1_n_n.rhsIdx_val_of_single rfl i q

/-- On its free axis (axis 1) the right operand reads the result's column. -/
theorem rhs_free (i : S1024x1024.Idx) (q : dot_S4x1024_S4x1024_S1024x1024_0_0_1_1_n_n.contr.Idx) :
    (dot_S4x1024_S4x1024_S1024x1024_0_0_1_1_n_n.rhsIdx i q 1).val = (i 1).val := by
  unfold DotDims.rhsIdx
  rw [dif_neg (show ¬(1 : Fin S4x1024.rank) ∈ dot_S4x1024_S4x1024_S1024x1024_0_0_1_1_n_n.rhsBatch by decide), dif_pos (show (1 : Fin S4x1024.rank) ∈ dot_S4x1024_S4x1024_S1024x1024_0_0_1_1_n_n.rhsNonContracting by decide)]
  rfl

/-- The matrix product into the zero accumulator, at entry `(n, m)`: the sum over the four channels `k` of the left
operand at `(k, n)` times the right operand at `(k, m)`. -/
theorem matmul_entry (a b : FVec Ideal S4x1024 .f32) (n m : Fin 1024) :
    matmul dot_S4x1024_S4x1024_S1024x1024_0_0_1_1_n_n none a b (constant (F := Ideal) S1024x1024 .f32 0x00000000#32) (ix2 n m)
      = ∑ k : Fin 4, a (ix2 k n) * b (ix2 k m) := by
  refine (Ideal.matmul_constant_zero_apply dot_S4x1024_S4x1024_S1024x1024_0_0_1_1_n_n none a b (ix2 n m)).trans ?_
  rw [← Equiv.sum_comp (contrEquiv1 dot_S4x1024_S4x1024_S1024x1024_0_0_1_1_n_n 4 rfl rfl).symm]
  refine Finset.sum_congr rfl fun k _ => ?_
  have hk := contrEquiv1_symm_val dot_S4x1024_S4x1024_S1024x1024_0_0_1_1_n_n 4 rfl rfl k
  have el : dot_S4x1024_S4x1024_S1024x1024_0_0_1_1_n_n.lhsIdx (ix2 n m) ((contrEquiv1 dot_S4x1024_S4x1024_S1024x1024_0_0_1_1_n_n 4 rfl rfl).symm k) = ix2 k n := funext fun a => Fin.ext (by
    match a with
    | ⟨0, _⟩ => exact (lhs_contr _ _).trans hk
    | ⟨1, _⟩ => exact lhs_free _ _)
  have er : dot_S4x1024_S4x1024_S1024x1024_0_0_1_1_n_n.rhsIdx (ix2 n m) ((contrEquiv1 dot_S4x1024_S4x1024_S1024x1024_0_0_1_1_n_n 4 rfl rfl).symm k) = ix2 k m := funext fun a => Fin.ext (by
    match a with
    | ⟨0, _⟩ => exact (rhs_contr _ _).trans hk
    | ⟨1, _⟩ => exact rhs_free _ _)
  rw [el, er]

/-- The Gram tile of two loaded blocks: each block is first viewed without its leading unit axis. -/
theorem gram_entry (p q : Vec Ideal S1x4x1024 .f32) (n m : Fin 1024) :
    matmul dot_S4x1024_S4x1024_S1024x1024_0_0_1_1_n_n none (shapeCast S4x1024 p shapeCasts_S1x4x1024_S4x1024 : FVec Ideal S4x1024 .f32)
        (shapeCast S4x1024 q shapeCasts_S1x4x1024_S4x1024 : FVec Ideal S4x1024 .f32)
        (constant (F := Ideal) S1024x1024 .f32 0x00000000#32) (ix2 n m)
      = gramB p q n m := by
  refine (matmul_entry _ _ n m).trans ?_
  unfold gramB
  refine Finset.sum_congr rfl fun k _ => ?_
  rw [shapeCast_1ab_ab_apply, shapeCast_1ab_ab_apply]

/-! ## The sum over the tile -/

/-- A sum over all entries of an array viewed under another shape is the sum over all entries of the array: the view
is a bijection of the index sets. -/
theorem sum_shapeCast {s t : Shape} (x : s.Idx → EReal) (h : s.ShapeCasts t) :
    ∑ j : t.Idx, shapeCast t x h j = ∑ k : s.Idx, x k :=
  Equiv.sum_comp (Shape.reshapeEquiv h) x

/-- The two-axis sum of a 1024 × 1024 array viewed as 1 × 1024 × 1024, into shape [1]: the double sum of the entries.
The initial value is the zero word, the identity of the sum. -/
theorem reduce_total (x : FVec Ideal S1024x1024 .f32) (hc : S1024x1024.ShapeCasts S1x1024x1024)
    (h : S1x1024x1024.Reduces [1, 2] S1) (hφ : FKind.Formats FTy.f32)
    (hacc : (0x00000000#32 : BitVec FTy.f32.bits) = FKind.add.neutral FTy.f32 hφ) (j : S1.Idx) :
    multiReduction .add [1, 2] S1 (shapeCast S1x1024x1024 x hc) 0x00000000#32 h hφ hacc j
      = ∑ n : Fin 1024, ∑ m : Fin 1024, x (ix2 n m) := by
  refine (Ideal.multiReduction_add_total (shapeCast S1x1024x1024 x hc) _ h (by decide) hφ hacc j).trans ?_
  exact (sum_shapeCast x hc).trans (sum_idx2 x)

/-- An array of shape [1] whose entry is `c`, viewed as 1 × 1 × 1 and read at its one position, is `c`. -/
theorem extract_const (y : FVec Ideal S1 .f32) (c : EReal) (hy : ∀ j, y j = c) (h : S1.ShapeCasts S1x1x1)
    (h' : ∀ a, (![0, 0, 0] : Fin 3 → Nat) a < S1x1x1.size a) :
    extractAt ![0, 0, 0] (shapeCast S1x1x1 y h) h' = c := by
  unfold extractAt shapeCast
  exact hy _

/-! ## The two stored values -/

theorem pay1_apply (j : S1x1.Idx) : k0_pay1 (F := Ideal) j = 0 := by
  unfold k0_pay1
  refine (congrFun (shapeCast_self _ _) j).trans ?_
  exact Ideal.ofBits_zero_f32

theorem pay2_apply (v7 v9 v12 v14 : Vec Ideal S1x4x1024 .f32) (v18 : Vec Ideal S1x1 .f32) (j : S1x1.Idx) :
    k0_pay2 (F := Ideal) v7 v9 v12 v14 v18 j = v18 j + tileB v7 v9 v12 v14 := by
  unfold k0_pay2
  refine (congrFun (shapeCast_self _ _) j).trans ?_
  refine congrArg (v18 j + ·) ?_
  refine extract_const _ _ (fun j' => ?_) _ _
  refine (reduce_total _ _ _ _ _ j').trans ?_
  unfold tileB
  refine Finset.sum_congr rfl fun n _ => Finset.sum_congr rfl fun m _ => ?_
  show (matmul dot_S4x1024_S4x1024_S1024x1024_0_0_1_1_n_n none _ _ _ (ix2 n m) - matmul dot_S4x1024_S4x1024_S1024x1024_0_0_1_1_n_n none _ _ _ (ix2 n m))
      * (matmul dot_S4x1024_S4x1024_S1024x1024_0_0_1_1_n_n none _ _ _ (ix2 n m) - matmul dot_S4x1024_S4x1024_S1024x1024_0_0_1_1_n_n none _ _ _ (ix2 n m)) = _
  rw [gram_entry v7 v9 n m, gram_entry v12 v14 n m]

end Cert.GramLoss.Tile

end
-- ==== Proof.BlockRead.lean ====
/-
  A grid point's four blocks are tiles of the two feature arrays. Point t has coordinates (b, i, j) = (t / 16, t / 4 mod 4,
  t mod 4); the first window on a feature array reads its batch b at the row tile i, the second at the column tile j, all
  four channels. So the Gram entry of two blocks at positions n, m is the Gram entry of the array at positions 1024·i + n,
  1024·j + m, the point's tile sum is the specification's tile pair (b, i, j), and the 64 points taken in order are the 4 × 4 × 4
  tile pairs: their sum is the loss numerator.
-/
import proofs.«161009_j25426206392656_1_alg».proof.Proof.KernelIdeal.Body
import proofs.«161009_j25426206392656_1_alg».proof.Proof.GramSpec
import proofs.«161009_j25426206392656_1_alg».proof.Proof.TilePayload

set_option maxRecDepth 16384

noncomputable section

namespace Cert.GramLoss.KV

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.GramLoss Cert.GramLoss.Tile Idealize.ShloMosaic.ValueIdx

variable (V : (c : Dev nD) → (b : Ref sig .tc) → Buf (Elt Ideal) ((c : Thread nD τ).loc b))

/-! ## A point's coordinates -/

theorem lt64 (t : Fin cfg0.N) : t.val < 64 := lt_of_lt_of_eq t.isLt N64
/-- The batch, -/
def pb (t : Fin cfg0.N) : Fin 4 := ⟨t.val / 16, by have := lt64 t; omega⟩
/-- the row tile, -/
def pi (t : Fin cfg0.N) : Fin 4 := ⟨t.val / 4 % 4, by omega⟩
/-- and the column tile of point `t`. -/
def pj (t : Fin cfg0.N) : Fin 4 := ⟨t.val % 4, by omega⟩

/-- The four input windows' block indices, decided over the grid. -/
theorem idx_facts : ∀ t : Fin cfg0.N,
    (win0_0.index t (0 : Fin 3) = t.val / 16 ∧ win0_0.index t (1 : Fin 3) = 0 ∧ win0_0.index t (2 : Fin 3) = t.val / 4 % 4)
    ∧ (win0_1.index t (0 : Fin 3) = t.val / 16 ∧ win0_1.index t (1 : Fin 3) = 0 ∧ win0_1.index t (2 : Fin 3) = t.val % 4)
    ∧ (win0_2.index t (0 : Fin 3) = t.val / 16 ∧ win0_2.index t (1 : Fin 3) = 0 ∧ win0_2.index t (2 : Fin 3) = t.val / 4 % 4)
    ∧ (win0_3.index t (0 : Fin 3) = t.val / 16 ∧ win0_3.index t (1 : Fin 3) = 0 ∧ win0_3.index t (2 : Fin 3) = t.val % 4) :=
  (by decide +kernel : ∀ t : Fin grid0.N, _)

/-! ## The blocks read at an index -/

theorem read0 (c : Dev nD) (t : Fin cfg0.N) (cc : Fin 4) (n : Fin 1024) :
    (iblk V c 0 t : Vec Ideal S1x4x1024 .f32) (ix3 0 cc n) = V c main_v8 (ix3 (pb t) cc (pos (pi t) n)) := by
  obtain ⟨⟨e0, e1, e2⟩, -⟩ := idx_facts t
  show V c main_v8 (((cfg0.win 0).blk t).view.emb (ix3 0 cc n)) = V c main_v8 (ix3 (pb t) cc (pos (pi t) n))
  refine congrArg (V c main_v8) ?_
  funext a; apply Fin.ext
  match a with
  | ⟨0, _⟩ => show win0_0.index t (0 : Fin 3) * 1 + 1 * 0 = t.val / 16; omega
  | ⟨1, _⟩ => show win0_0.index t (1 : Fin 3) * 4 + 1 * cc.val = cc.val; omega
  | ⟨2, _⟩ => show win0_0.index t (2 : Fin 3) * 1024 + 1 * n.val = 1024 * (t.val / 4 % 4) + n.val; omega

theorem read1 (c : Dev nD) (t : Fin cfg0.N) (cc : Fin 4) (n : Fin 1024) :
    (iblk V c 1 t : Vec Ideal S1x4x1024 .f32) (ix3 0 cc n) = V c main_v8 (ix3 (pb t) cc (pos (pj t) n)) := by
  obtain ⟨-, ⟨e0, e1, e2⟩, -⟩ := idx_facts t
  show V c main_v8 (((cfg0.win 1).blk t).view.emb (ix3 0 cc n)) = V c main_v8 (ix3 (pb t) cc (pos (pj t) n))
  refine congrArg (V c main_v8) ?_
  funext a; apply Fin.ext
  match a with
  | ⟨0, _⟩ => show win0_1.index t (0 : Fin 3) * 1 + 1 * 0 = t.val / 16; omega
  | ⟨1, _⟩ => show win0_1.index t (1 : Fin 3) * 4 + 1 * cc.val = cc.val; omega
  | ⟨2, _⟩ => show win0_1.index t (2 : Fin 3) * 1024 + 1 * n.val = 1024 * (t.val % 4) + n.val; omega

theorem read2 (c : Dev nD) (t : Fin cfg0.N) (cc : Fin 4) (n : Fin 1024) :
    (iblk V c 2 t : Vec Ideal S1x4x1024 .f32) (ix3 0 cc n) = V c main_v17 (ix3 (pb t) cc (pos (pi t) n)) := by
  obtain ⟨-, -, ⟨e0, e1, e2⟩, -⟩ := idx_facts t
  show V c main_v17 (((cfg0.win 2).blk t).view.emb (ix3 0 cc n)) = V c main_v17 (ix3 (pb t) cc (pos (pi t) n))
  refine congrArg (V c main_v17) ?_
  funext a; apply Fin.ext
  match a with
  | ⟨0, _⟩ => show win0_2.index t (0 : Fin 3) * 1 + 1 * 0 = t.val / 16; omega
  | ⟨1, _⟩ => show win0_2.index t (1 : Fin 3) * 4 + 1 * cc.val = cc.val; omega
  | ⟨2, _⟩ => show win0_2.index t (2 : Fin 3) * 1024 + 1 * n.val = 1024 * (t.val / 4 % 4) + n.val; omega

theorem read3 (c : Dev nD) (t : Fin cfg0.N) (cc : Fin 4) (n : Fin 1024) :
    (iblk V c 3 t : Vec Ideal S1x4x1024 .f32) (ix3 0 cc n) = V c main_v17 (ix3 (pb t) cc (pos (pj t) n)) := by
  obtain ⟨-, -, -, ⟨e0, e1, e2⟩⟩ := idx_facts t
  show V c main_v17 (((cfg0.win 3).blk t).view.emb (ix3 0 cc n)) = V c main_v17 (ix3 (pb t) cc (pos (pj t) n))
  refine congrArg (V c main_v17) ?_
  funext a; apply Fin.ext
  match a with
  | ⟨0, _⟩ => show win0_3.index t (0 : Fin 3) * 1 + 1 * 0 = t.val / 16; omega
  | ⟨1, _⟩ => show win0_3.index t (1 : Fin 3) * 4 + 1 * cc.val = cc.val; omega
  | ⟨2, _⟩ => show win0_3.index t (2 : Fin 3) * 1024 + 1 * n.val = 1024 * (t.val % 4) + n.val; omega

/-! ## A point's tile sum is the specification's tile pair -/

/-- The two blocks of the first feature array give its Gram entry at the tile positions. -/
theorem gram_block01 (c : Dev nD) (t : Fin cfg0.N) (n m : Fin 1024) :
    gramB (iblk V c 0 t) (iblk V c 1 t) n m = gram (V c main_v8) (pb t) (pos (pi t) n) (pos (pj t) m) := by
  unfold gramB gram
  exact Finset.sum_congr rfl fun cc _ => congrArg₂ (fun x y : EReal => x * y) (read0 V c t cc n) (read1 V c t cc m)

theorem gram_block23 (c : Dev nD) (t : Fin cfg0.N) (n m : Fin 1024) :
    gramB (iblk V c 2 t) (iblk V c 3 t) n m = gram (V c main_v17) (pb t) (pos (pi t) n) (pos (pj t) m) := by
  unfold gramB gram
  exact Finset.sum_congr rfl fun cc _ => congrArg₂ (fun x y : EReal => x * y) (read2 V c t cc n) (read3 V c t cc m)

/-- The tile sum of the four blocks at point `t` is the tile pair at the point's coordinates. -/
theorem tile_block (c : Dev nD) (t : Fin cfg0.N) :
    tileB (iblk V c 0 t) (iblk V c 1 t) (iblk V c 2 t) (iblk V c 3 t) = tile (V c main_v8) (V c main_v17) (pb t) (pi t) (pj t) := by
  unfold tileB tile sqDiff
  refine Finset.sum_congr rfl fun n _ => Finset.sum_congr rfl fun m _ => ?_
  rw [gram_block01 V c t n m, gram_block23 V c t n m]

/-! ## The 64 points are the 4 × 4 × 4 tile pairs -/

/-- Row-major numbering of the triples. -/
def pointEquiv : Fin 4 × Fin 4 × Fin 4 ≃ Fin 64 where
  toFun p := ⟨16 * p.1.val + 4 * p.2.1.val + p.2.2.val, by have := p.1.isLt; have := p.2.1.isLt; have := p.2.2.isLt; omega⟩
  invFun t := (⟨t.val / 16, by have := t.isLt; omega⟩, ⟨t.val / 4 % 4, by omega⟩, ⟨t.val % 4, by omega⟩)
  left_inv := fun ⟨b, i, j⟩ => by
    have := b.isLt; have := i.isLt; have := j.isLt
    refine Prod.ext (Fin.ext ?_) (Prod.ext (Fin.ext ?_) (Fin.ext ?_)) <;> (show _ = _) <;> dsimp only <;> omega
  right_inv := fun t => by
    have := t.isLt
    refine Fin.ext ?_; show 16 * (t.val / 16) + 4 * (t.val / 4 % 4) + t.val % 4 = t.val; omega

/-- A sum over the points in order is the triple sum over the coordinates. -/
theorem sum_points {M : Type} [AddCommMonoid M] (f : Fin 4 → Fin 4 → Fin 4 → M) :
    ∑ t : Fin 64, f ⟨t.val / 16, by have := t.isLt; omega⟩ ⟨t.val / 4 % 4, by omega⟩ ⟨t.val % 4, by omega⟩
      = ∑ b : Fin 4, ∑ i : Fin 4, ∑ j : Fin 4, f b i j := by
  have h1 : ∑ t : Fin 64, f ⟨t.val / 16, by have := t.isLt; omega⟩ ⟨t.val / 4 % 4, by omega⟩ ⟨t.val % 4, by omega⟩
      = ∑ p : Fin 4 × Fin 4 × Fin 4, f p.1 p.2.1 p.2.2 :=
    Fintype.sum_equiv pointEquiv.symm _ _ (fun t => rfl)
  rw [h1, Fintype.sum_prod_type]
  exact Finset.sum_congr rfl fun b _ => Fintype.sum_prod_type _

end Cert.GramLoss.KV

end
-- ==== Proof.CellValue.lean ====
/-
  What the two one-cell buffers hold after each grid point, as sums of tiles.

  Each run of the kernel body leaves, in the scratch cell, the value it stored last: at the first point the tile's sum
  added to the zero it had just stored there, at every later point the tile's sum added to what the point before left.
  At the last point the output cell receives the scratch cell's final contents. Read over the extended reals, the
  scratch cell after point `n` therefore holds `acc n`, the tiles of the points `0..n` added in the order of the grid
  starting from zero, and `acc 63` is the sum of all 64 tiles. Only that `0` is the identity of the addition is used.
-/
import proofs.«161009_j25426206392656_1_alg».proof.Proof.KernelIdeal.Body
import proofs.«161009_j25426206392656_1_alg».proof.Proof.TilePayload
import Idealize.ShloMosaic.Lib.Pipeline.Value
import Idealize.ShloMosaic.Lib.Pipeline.FrameBody
import Idealize.ShloMosaic.Lib.ValueIdx
import Idealize.ShloMosaic.Lib.Tactic

set_option maxRecDepth 16384

noncomputable section

namespace Cert.GramLoss.Cell

open Cert.KernelIdeal Cert.KernelIdeal.Gen Cert.KernelIdeal.Hand Cert.GramLoss.Tile
open Idealize.ShloMosaic Idealize.ShloMosaic.ValueIdx Idealize.ShloMosaic.Tactic Idealize.ShloMosaic.TcCoe Idealize.SL.Sem

/-! ## What each run leaves is the stored payload -/

section Pieces

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- At the first point the scratch cell is stored twice, whole: the zero, then the tile's sum added to the zero read
back. What is left is the later store. -/
theorem sout_A (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : cond0_0 i) (hc1 : ¬cond0_1 i) (x0 x1 x2 x3 : Vec F S1x4x1024 .f32) :
    sout0_A_0 c i arg3 harg3 arg4 harg4 arg5 harg5 arg6 harg6 arg7 harg7 arg8 harg8 hc0 hc1 x0 x1 x2 x3 = k0_pay2 x0 x1 x2 x3 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero hz2]
  simp only [View.readAt_eq_ld, harg3.read_unread, harg4.read_unread, harg5.read_unread, harg6.read_unread,
    View.ld_unit_zero (S := S1x4x1024) hz3, View.readCov_unit_zero (S := S1x1) _ hz2]

/-- At a middle point the scratch cell receives the tile's sum added to what it held. -/
theorem sout_B (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : ¬cond0_1 i) (x0 x1 x2 x3 : Vec F S1x4x1024 .f32) (xs0 : Vec F S1x1 .f32) :
    sout0_B_0 c i arg3 harg3 arg4 harg4 arg5 harg5 arg6 harg6 arg7 harg7 arg8 harg8 hc0 hc1 x0 x1 x2 x3 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz2]
  simp only [View.readAt_eq_ld, harg3.read_unread, harg4.read_unread, harg5.read_unread, harg6.read_unread, harg8.read_unread,
    View.ld_unit_zero (S := S1x4x1024) hz3, View.ld_unit_zero (S := S1x1) hz2]

/-- At the last point likewise, -/
theorem sout_C (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 x3 : Vec F S1x4x1024 .f32) (xs0 : Vec F S1x1 .f32) :
    sout0_C_0 c i arg3 harg3 arg4 harg4 arg5 harg5 arg6 harg6 arg7 harg7 arg8 harg8 hc0 hc1 x0 x1 x2 x3 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread,
    View.ld_unit_zero (S := S1x4x1024) hz3, View.ld_unit_zero (S := S1x1) hz2]

/-- and the output cell receives the scratch cell's new contents, read back. -/
theorem out_C (c : Dev nD) (i : grid0.Coords) (arg3 : Memref sig .tc .vmem S1x4x1024 .f32) (harg3 : arg3.IsWhole) (arg4 : Memref sig .tc .vmem S1x4x1024 .f32) (harg4 : arg4.IsWhole) (arg5 : Memref sig .tc .vmem S1x4x1024 .f32) (harg5 : arg5.IsWhole) (arg6 : Memref sig .tc .vmem S1x4x1024 .f32) (harg6 : arg6.IsWhole) (arg7 : Memref sig .tc .vmem S1x1 .f32) (harg7 : arg7.IsWhole) (arg8 : Memref sig .tc .vmem S1x1 .f32) (harg8 : arg8.IsWhole) (hc0 : ¬cond0_0 i) (hc1 : cond0_1 i) (x0 x1 x2 x3 : Vec F S1x4x1024 .f32) (xs0 : Vec F S1x1 .f32) :
    out0_C_4 c i arg3 harg3 arg4 harg4 arg5 harg5 arg6 harg6 arg7 harg7 arg8 harg8 hc0 hc1 x0 x1 x2 x3 xs0 = k0_pay2 x0 x1 x2 x3 xs0 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz2, View.readCov_unit_zero (S := S1x1) _ hz2]
  simp only [View.readAt_eq_ld, harg3.read_unread, harg4.read_unread, harg5.read_unread, harg6.read_unread, harg8.read_unread,
    View.ld_unit_zero (S := S1x4x1024) hz3, View.ld_unit_zero (S := S1x1) hz2]

end Pieces

/-! ## The accumulation over the extended reals -/

-- the buffer contents when the region is entered
variable (V : (c : Dev nD) → (b : Ref sig .tc) → Buf (Elt Ideal) ((c : Thread nD τ).loc b))

/-- The tile sum of grid point t: the four windows' blocks there. -/
def tileAt (c : Dev nD) (t : Fin cfg0.N) : EReal := tileB (iblk V c 0 t) (iblk V c 1 t) (iblk V c 2 t) (iblk V c 3 t)

/-- The sum of the tiles of the points 0..n, in the order the kernel adds them. -/
def acc (c : Dev nD) : (n : ℕ) → n < cfg0.N → EReal
  | 0, hn => 0 + tileAt V c ⟨0, hn⟩
  | n + 1, hn => acc c n (Nat.lt_of_succ_lt hn) + tileAt V c ⟨n + 1, hn⟩

/-- After the first point the scratch cell holds zero plus the first tile. -/
theorem scratch_first (c : Dev nD) (t : Fin cfg0.N) (h0 : t.val = 0) (j : S1x1.Idx) :
    (outsAt0 (F := Ideal) V c t.val t.isLt).2 j = 0 + tileAt V c t := by
  have hN : t.val < 64 := lt_of_lt_of_eq t.isLt N64
  have hc0 : cond0_0 (grid0.coords t) := (hcond0_0 t).mpr (by omega)
  have hc1 : ¬cond0_1 (grid0.coords t) := fun h => by have := (hcond0_1 t).mp h; omega
  refine (congrArg (fun p => p.2 j) (outsAt0_A V c t h0 hc0 hc1)).trans ?_
  refine (congrFun (sout_A c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk V c 0 t) (iblk V c 1 t) (iblk V c 2 t) (iblk V c 3 t)) j).trans ?_
  refine (pay2_apply (iblk V c 0 t) (iblk V c 1 t) (iblk V c 2 t) (iblk V c 3 t) (k0_pay1 (F := Ideal)) j).trans ?_
  exact congrArg (· + tileAt V c t) (pay1_apply j)

/-- After any later point it holds what the point before left plus the point's tile. -/
theorem scratch_next (c : Dev nD) (t : Fin cfg0.N) (h0 : t.val ≠ 0) (j : S1x1.Idx) :
    (outsAt0 (F := Ideal) V c t.val t.isLt).2 j
      = (outsAt0 (F := Ideal) V c (t.val - 1) (Nat.lt_of_le_of_lt (Nat.sub_le _ _) t.isLt)).2 j + tileAt V c t := by
  have hN : t.val < 64 := lt_of_lt_of_eq t.isLt N64
  have hc0 : ¬cond0_0 (grid0.coords t) := fun h => by have := (hcond0_0 t).mp h; omega
  by_cases h1 : t.val % 64 = 63
  · have hc1 : cond0_1 (grid0.coords t) := (hcond0_1 t).mpr h1
    refine (congrArg (fun p => p.2 j) (outsAt0_C V c t h0 h1 hc0 hc1)).trans ?_
    refine (congrFun (sout_C c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk V c 0 t) (iblk V c 1 t) (iblk V c 2 t) (iblk V c 3 t) (outsAt0 V c (t.val - 1) (Nat.lt_of_le_of_lt (Nat.sub_le _ _) t.isLt)).2) j).trans ?_
    exact pay2_apply (iblk V c 0 t) (iblk V c 1 t) (iblk V c 2 t) (iblk V c 3 t) (outsAt0 V c (t.val - 1) (Nat.lt_of_le_of_lt (Nat.sub_le _ _) t.isLt)).2 j
  · have hc1 : ¬cond0_1 (grid0.coords t) := fun h => h1 ((hcond0_1 t).mp h)
    refine (congrArg (fun p => p.2 j) (outsAt0_B V c t h0 h1 hc0 hc1)).trans ?_
    refine (congrFun (sout_B c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk V c 0 t) (iblk V c 1 t) (iblk V c 2 t) (iblk V c 3 t) (outsAt0 V c (t.val - 1) (Nat.lt_of_le_of_lt (Nat.sub_le _ _) t.isLt)).2) j).trans ?_
    exact pay2_apply (iblk V c 0 t) (iblk V c 1 t) (iblk V c 2 t) (iblk V c 3 t) (outsAt0 V c (t.val - 1) (Nat.lt_of_le_of_lt (Nat.sub_le _ _) t.isLt)).2 j

/-- After point `n` the scratch cell holds the tiles `0..n` added in order. -/
theorem scratch_after (c : Dev nD) (n : ℕ) (hn : n < cfg0.N) (j : S1x1.Idx) :
    (outsAt0 (F := Ideal) V c n hn).2 j = acc V c n hn := by
  induction n with
  | zero => exact scratch_first V c ⟨0, hn⟩ rfl j
  | succ n ih =>
    refine (scratch_next V c ⟨n + 1, hn⟩ (Nat.succ_ne_zero n) j).trans ?_
    exact congrArg (· + tileAt V c ⟨n + 1, hn⟩) (ih (Nat.lt_of_succ_lt hn))

/-- At the last point the output cell receives exactly what the scratch cell receives: both are the tile's sum added to
what the point before left. -/
theorem out_eq_scratch (c : Dev nD) (t : Fin cfg0.N) (h0 : t.val ≠ 0) (h1 : t.val % 64 = 63) :
    (outsAt0 (F := Ideal) V c t.val t.isLt).1 = (outsAt0 (F := Ideal) V c t.val t.isLt).2 := by
  have hN : t.val < 64 := lt_of_lt_of_eq t.isLt N64
  have hc0 : ¬cond0_0 (grid0.coords t) := fun h => by have := (hcond0_0 t).mp h; omega
  have hc1 : cond0_1 (grid0.coords t) := (hcond0_1 t).mpr h1
  refine (congrArg (fun p => p.1) (outsAt0_C V c t h0 h1 hc0 hc1)).trans ?_
  refine Eq.trans ?_ (congrArg (fun p => p.2) (outsAt0_C V c t h0 h1 hc0 hc1)).symm
  exact (out_C c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk V c 0 t) (iblk V c 1 t) (iblk V c 2 t) (iblk V c 3 t) (outsAt0 V c (t.val - 1) (Nat.lt_of_le_of_lt (Nat.sub_le _ _) t.isLt)).2).trans
    (sout_C c (grid0.coords t) (ms0_0 t) (hs0_0 t) (ms0_1 t) (hs0_1 t) (ms0_2 t) (hs0_2 t) (ms0_3 t) (hs0_3 t) (ms0_4 t) (hs0_4 t) scM0_0 (Memref.isWhole_whole _) hc0 hc1 (iblk V c 0 t) (iblk V c 1 t) (iblk V c 2 t) (iblk V c 3 t) (outsAt0 V c (t.val - 1) (Nat.lt_of_le_of_lt (Nat.sub_le _ _) t.isLt)).2).symm

/-- After a point at which the output cell is written it holds what the scratch cell holds: the tiles so far. -/
theorem out_after (c : Dev nD) (n : ℕ) (hn : n < cfg0.N) (h1 : n % 64 = 63) (j : S1x1.Idx) :
    (outsAt0 (F := Ideal) V c n hn).1 j = acc V c n hn :=
  (congrFun (out_eq_scratch V c ⟨n, hn⟩ (fun h0 : n = 0 => by subst h0; exact absurd h1 (by decide)) h1) j).trans
    (scratch_after V c n hn j)

/-- After the last point the output cell holds the same: all 64 tiles added in order. -/
theorem out_last (c : Dev nD) (hn : 63 < cfg0.N) (j : S1x1.Idx) :
    (outsAt0 (F := Ideal) V c 63 hn).1 j = acc V c 63 hn :=
  out_after V c 63 hn rfl j

/-- The running sum after point `n` is the sum of the tiles `0..n`: zero is the identity, and a sum over `n + 2`
indices is the sum over the first `n + 1` plus the last term. -/
theorem acc_eq (c : Dev nD) (n : ℕ) (hn : n < cfg0.N) :
    acc V c n hn = ∑ t : Fin (n + 1), tileAt V c ⟨t.val, lt_of_lt_of_le t.isLt hn⟩ := by
  induction n with
  | zero =>
    rw [Fin.sum_univ_one]
    exact zero_add _
  | succ n ih =>
    rw [Fin.sum_univ_castSucc]
    exact congrArg (· + tileAt V c ⟨n + 1, hn⟩) (ih (Nat.lt_of_succ_lt hn))

/-- The final value is the sum of all 64 tiles. -/
theorem acc_eq_sum (c : Dev nD) (hn : 63 < cfg0.N) :
    acc V c 63 hn = ∑ t : Fin 64, tileAt V c ⟨t.val, lt_of_lt_of_eq t.isLt N64.symm⟩ :=
  acc_eq V c 63 hn

end Cert.GramLoss.Cell

end
-- ==== Proof.RefTotal.lean ====
/-
  The reference program's result, read as the quantity of `GramSpec`.

  The last eight operations of the reference take the two normalised feature arrays `z_pred`, `z_src`
  (batch × channel × position), form the two batched Gram matrices by contracting the channel axis, subtract and
  square them entrywise, add up every entry from the initial value zero, and divide by the constant `2^26`. Read
  at an index each operation is one arithmetic step on extended reals, so the entry at `(b, n, m)` of the squared
  difference is `sqDiff z_pred z_src b n m`; the sum over the rank-3 index set is the triple sum over its
  coordinates (`sum_idx3`), which is `total`. The normalisation that produces the two feature arrays is never
  opened here.
-/
import proofs.«161009_j25426206392656_1_alg».proof.Proof.Gen.ReferenceIdeal.Read
import proofs.«161009_j25426206392656_1_alg».proof.Proof.GramSpec
import Idealize.ShloMosaic.Lib.ValueIdx
import Idealize.ShloMosaic.PureOps.Ideal.Laws

noncomputable section

namespace Cert.GramLoss.Ref

open Idealize.ShloMosaic Idealize.ShloMosaic.ValueIdx Cert.ReferenceIdeal Cert.ReferenceIdeal.Read

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The entry at `(b, n, m)` of the squared difference of the two Gram matrices: both contractions run over the
channel `k`, reading the feature array at `(b, k, n)` and at `(b, k, m)`. -/
theorem sq_entry (x0 x1 : (⟨S4x4x64x64, .f32⟩ : BufTy).Contents (Elt Ideal)) (b : Fin 4) (n m : Fin 4096) :
    val_main_v21 (F := Ideal) x0 x1 (ix3 b n m)
      = sqDiff (val_main_v8 (F := Ideal) x0) (val_main_v17 (F := Ideal) x1) b n m := by
  have hl18 (k : Fin 4) : lidx_main_v18 (ix3 b n m) k = ix3 b k n :=
    funext fun a => Fin.ext (by match a with | ⟨0, _⟩ => rfl | ⟨1, _⟩ => rfl | ⟨2, _⟩ => rfl)
  have hr18 (k : Fin 4) : ridx_main_v18 (ix3 b n m) k = ix3 b k m :=
    funext fun a => Fin.ext (by match a with | ⟨0, _⟩ => rfl | ⟨1, _⟩ => rfl | ⟨2, _⟩ => rfl)
  have hl19 (k : Fin 4) : lidx_main_v19 (ix3 b n m) k = ix3 b k n :=
    funext fun a => Fin.ext (by match a with | ⟨0, _⟩ => rfl | ⟨1, _⟩ => rfl | ⟨2, _⟩ => rfl)
  have hr19 (k : Fin 4) : ridx_main_v19 (ix3 b n m) k = ix3 b k m :=
    funext fun a => Fin.ext (by match a with | ⟨0, _⟩ => rfl | ⟨1, _⟩ => rfl | ⟨2, _⟩ => rfl)
  rw [val_main_v21_apply, val_main_v20_apply, val_main_v18_apply, val_main_v19_apply]
  generalize val_main_v8 (F := Ideal) x0 = zp
  generalize val_main_v17 (F := Ideal) x1 = zs
  simp only [hl18, hr18, hl19, hr19]
  rfl

/-- The reference's result is the numerator `total` of the two normalised feature arrays divided by the constant. -/
theorem reference_value (x0 x1 : (⟨Cert.ReferenceIdeal.S4x4x64x64, .f32⟩ : BufTy).Contents (Elt Ideal)) (i : Cert.ReferenceIdeal.S_.Idx) :
    Cert.ReferenceIdeal.Read.val_main_v23 (F := Ideal) x0 x1 i
      = Ideal.div (Cert.GramLoss.total (Cert.ReferenceIdeal.Read.val_main_v8 (F := Ideal) x0) (Cert.ReferenceIdeal.Read.val_main_v17 (F := Ideal) x1))
          (Ideal.ofBits .f32 0x4C800000#32) := by
  rw [val_main_v23_apply, val_main_v22_apply, val_main_cst_3_apply, val_main_cst_4_apply, Ideal.hostDivf_def,
    Ideal.ofBits_def, Ideal.ofBits_def, Ideal.ofBits_zero_f32, zero_add, sum_idx3]
  unfold total
  refine congrArg (fun t => Ideal.div t _) ?_
  exact Finset.sum_congr rfl fun b _ => Finset.sum_congr rfl fun n _ => Finset.sum_congr rfl fun m _ =>
    sq_entry x0 x1 b n m

end Cert.GramLoss.Ref

end
-- ==== Proof.LibTileOps.lean ====
/-
  Vector operations of a tile read at an index, at the ideal instance, generic in the extents.

  * a shape cast between two shapes of one element, and a broadcast from a shape whose axes all have extent one,
    read the operand's only element;
  * a vector of length `a` cast to the column `[a, 1]` reads the vector at the row;
  * the sum of a `[a, b]` tile taken in two steps — along the lanes, then, after the cast to a column, along the
    rows — is the double sum over the rows and the lanes.
-/
import Idealize.ShloMosaic.Lib.Pipeline.Value
import Idealize.ShloMosaic.Lib.ValueIdx
import Idealize.ShloMosaic.PureOps.Ideal.Laws

noncomputable section

namespace Cert.LibTileOps

open Idealize.ShloMosaic Idealize.ShloMosaic.ValueIdx

variable {α : Type}

/-- A cast out of a shape with one element reads that element, whatever the two indices are called. -/
theorem shapeCast_one {s t : Shape} (x : s.Idx → α) (h : s.ShapeCasts t) (hs : s.numel = 1) (j : t.Idx) (k : s.Idx) :
    shapeCast t x h j = x k :=
  shapeCast_apply x h j k (by
    have h1 := (s.rowMajor k).isLt
    have h2 := (t.rowMajor j).isLt
    have h3 : t.numel = s.numel := h
    omega)

/-- A broadcast out of a shape whose axes all have extent one reads its one element everywhere. -/
theorem broadcastTo_one {s t : Shape} (x : s.Idx → α) (h : s.Broadcasts t) (hs : ∀ a, s.size a = 1) (j : t.Idx) (k : s.Idx) :
    broadcastTo t x h j = x k :=
  broadcastTo_apply x h j k (fun a => by
    rw [if_pos (hs a)]
    have h1 := (k a).isLt
    have h2 := hs a
    omega)

/-- A length-`a` vector cast to the column `[a, 1]`, read at row `i`. -/
theorem shapeCast_col_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

/-- The two-step sum of a tile: lanes first, then rows. -/
theorem tile_sum_apply {a b : ℕ} (x : FVec Ideal ⟨2, ![a, b]⟩ .f32)
    (h1 : (⟨2, ![a, b]⟩ : Shape).Reduces [1] ⟨1, ![a]⟩) (hφ1 : FKind.Formats .f32)
    (hacc1 : (0x00000000#32 : BitVec 32) = FKind.add.neutral .f32 hφ1)
    (hc : (⟨1, ![a]⟩ : Shape).ShapeCasts ⟨2, ![a, 1]⟩)
    (h0 : (⟨2, ![a, 1]⟩ : Shape).Reduces [0] ⟨1, ![1]⟩) (hφ0 : FKind.Formats .f32)
    (hacc0 : (0x00000000#32 : BitVec 32) = FKind.add.neutral .f32 hφ0)
    (j : (⟨1, ![1]⟩ : Shape).Idx) :
    multiReduction .add [0] ⟨1, ![1]⟩
        (shapeCast ⟨2, ![a, 1]⟩ (multiReduction .add [1] ⟨1, ![a]⟩ x 0x00000000#32 h1 hφ1 hacc1) hc)
        0x00000000#32 h0 hφ0 hacc0 j
      = ∑ r : Fin a, ∑ k : Fin b, x (ix2 r k) := by
  refine (Ideal.multiReduction_add_single _ _ h0 hφ0 hacc0 j).trans ?_
  show ∑ r : Fin a, _ = _
  refine Finset.sum_congr rfl fun r _ => ?_
  have e0 : h0.lift j r = ix2 r (0 : Fin 1) := funext fun c => Fin.ext (by
    match c with
    | ⟨0, _⟩ => rfl
    | ⟨1, _⟩ => show (j ⟨0, _⟩).val = 0; have hj : (j ⟨0, Nat.one_pos⟩).val < 1 := (j ⟨0, Nat.one_pos⟩).isLt; omega)
  rw [e0, shapeCast_col_apply]
  refine (Ideal.multiReduction_add_single x _ h1 hφ1 hacc1 (ix1 r)).trans ?_
  show ∑ k : Fin b, _ = _
  refine Finset.sum_congr rfl fun k _ => ?_
  exact congrArg x (funext fun c => Fin.ext (by
    match c with
    | ⟨0, _⟩ => rfl
    | ⟨1, _⟩ => rfl))

end Cert.LibTileOps

end
-- ==== Proof.KernelValue.lean ====
/-
  The idealized kernel's result. After the region the host reshapes the one-cell output to a scalar and divides it by 2^26.
  The cell holds the sum, point by point, of the 64 tile sums, which is the loss numerator of the two feature arrays the
  region was entered with; and those feature arrays are the reference's normalised features of the same two inputs, the host
  operations before the region being the reference's own. So the result is the reference's quotient.
-/
import proofs.«161009_j25426206392656_1_alg».proof.Proof.KernelIdeal.Region
import proofs.«161009_j25426206392656_1_alg».proof.Proof.OutArray
import proofs.«161009_j25426206392656_1_alg».proof.Proof.BlockRead
import proofs.«161009_j25426206392656_1_alg».proof.Proof.CellValue
import proofs.«161009_j25426206392656_1_alg».proof.Proof.RefTotal
import proofs.«161009_j25426206392656_1_alg».proof.Proof.LibTileOps
import Idealize.ShloMosaic.Lib.StableHlo.Run

set_option maxRecDepth 16384

noncomputable section

namespace Cert.GramLoss.KV

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.GramLoss Cert.GramLoss.Tile Cert.GramLoss.Cell Idealize.ShloMosaic.ValueIdx Idealize.ShloMosaic.StableHlo

variable (m : (ℓ : Loc nD τ sig) → Buf (Elt Ideal) ℓ) (ρ : Dev nD → PrngReg)

/-! ## The feature arrays the region is entered with -/

/-- The first feature array is the reference's normalisation of the first input. -/
theorem entry_v8 (c : Dev nD) :
    (V1 m ρ c main_v8 : S4x4x4096.Idx → Elt Ideal .f32)
      = Cert.ReferenceIdeal.Read.val_main_v8 (F := Ideal) (m ((c : Thread nD τ).loc main_arg0)) := by
  show StableHlo.after hostOps0 (W0 m ρ c) (Proc.devRef .tc main_v8) = _
  after_results
  rfl

/-- The second feature array is the reference's normalisation of the second input. -/
theorem entry_v17 (c : Dev nD) :
    (V1 m ρ c main_v17 : S4x4x4096.Idx → Elt Ideal .f32)
      = Cert.ReferenceIdeal.Read.val_main_v17 (F := Ideal) (m ((c : Thread nD τ).loc main_arg1)) := by
  show StableHlo.after hostOps0 (W0 m ρ c) (Proc.devRef .tc main_v17) = _
  after_results
  rfl

/-! ## The result buffer -/

/-- The result after the last host stretch, as its three operations' term of the output array. -/
theorem result_term (c : Dev nD) :
    (W3 m ρ c (Proc.devRef .tc main_v20) : S_.Idx → Elt Ideal .f32)
      = Host.divf (F := Ideal) (shapeCast S_ (W2 m ρ c (Proc.devRef .tc main_v18) : FVec Ideal S1x1 .f32) shapeCasts_S1x1_S_)
          (constant (F := Ideal) S_ .f32 0x4C800000#32) := by
  show StableHlo.after hostOps1 (W2 m ρ c) (Proc.devRef .tc main_v20) = _
  after_results
  rfl

/-- The 64 points' tile sums add up to the loss numerator of the two feature arrays. -/
theorem points_total (c : Dev nD) :
    ∑ t : Fin 64, tileAt (V1 m ρ) c ⟨t.val, lt_of_lt_of_eq t.isLt N64.symm⟩ = total (V1 m ρ c main_v8) (V1 m ρ c main_v17) := by
  rw [total_eq_tiles, ← sum_points (fun b i j => tile (V1 m ρ c main_v8) (V1 m ρ c main_v17) b i j)]
  exact Finset.sum_congr rfl fun t _ => tile_block (V1 m ρ) c ⟨t.val, lt_of_lt_of_eq t.isLt N64.symm⟩

/-- THE RESULT: the loss numerator of the reference's normalised features, divided by 2^26. -/
theorem kernel_value (c : Dev nD) (i : S_.Idx) :
    (W3 m ρ c (Proc.devRef .tc main_v20) : S_.Idx → Elt Ideal .f32) i
      = Ideal.div (total (Cert.ReferenceIdeal.Read.val_main_v8 (F := Ideal) (m ((c : Thread nD τ).loc main_arg0)))
            (Cert.ReferenceIdeal.Read.val_main_v17 (F := Ideal) (m ((c : Thread nD τ).loc main_arg1))))
          (Ideal.ofBits .f32 0x4C800000#32) := by
  rw [result_term]
  show Ideal.div (shapeCast S_ (W2 m ρ c (Proc.devRef .tc main_v18) : FVec Ideal S1x1 .f32) shapeCasts_S1x1_S_ i) (Ideal.ofBits .f32 0x4C800000#32) = _
  refine congrArg (fun x => Ideal.div x (Ideal.ofBits .f32 0x4C800000#32)) ?_
  refine (Cert.LibTileOps.shapeCast_one _ shapeCasts_S1x1_S_ (by decide) i (ix2 0 0)).trans ?_
  refine (congrFun (W2_out m ρ c) (ix2 0 0)).trans ?_
  refine (congrFun (out_array (V1 m ρ) c) (ix2 0 0)).trans ?_
  refine (out_last (V1 m ρ) c N63 (ix2 0 0)).trans ?_
  refine (acc_eq_sum (V1 m ρ) c N63).trans ?_
  refine (points_total m ρ c).trans ?_
  rw [entry_v8, entry_v17]

end Cert.GramLoss.KV

end
-- ==== Proof.lean ====
/-
  The certificate. Both kernels' frames are their whole-run theorems read at the two argument arrays; the reference's frame
  is its run with the result dropped; the idealization rewrote nothing. For the value claim both programs normalise the two
  inputs by the same host operations; the kernel then accumulates, over a 4 × 4 × 4 grid of 1024 × 1024 tiles, the sum of the
  squared differences of the two Gram matrices into one cell, where the reference takes that sum at once over batch × 4096 ×
  4096; the two are one finite sum of extended reals grouped differently, and both are divided by 2^26.
-/
import proofs.«161009_j25426206392656_1_alg».proof.Defs
import proofs.«161009_j25426206392656_1_alg».proof.Proof.Gen.Kernel
import proofs.«161009_j25426206392656_1_alg».proof.Proof.Gen.KernelIdeal
import proofs.«161009_j25426206392656_1_alg».proof.Proof.Gen.ReferenceIdeal
import proofs.«161009_j25426206392656_1_alg».proof.Proof.Gen.ReferenceIdeal.Run
import proofs.«161009_j25426206392656_1_alg».proof.Proof.Gen.ReferenceIdeal.Read
import proofs.«161009_j25426206392656_1_alg».proof.Proof.Gen.Pre_finite_inputs
import proofs.«161009_j25426206392656_1_alg».proof.Proof.Kernel.Region
import proofs.«161009_j25426206392656_1_alg».proof.Proof.KernelIdeal.Region
import proofs.«161009_j25426206392656_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two idealized programs, from memories agreeing on the inputs, end with the same scalar. -/
theorem algebraic : Cert.algebraic_KernelIdeal_ReferenceIdeal := by
  intro m ρ m' ρ' _ hagree
  refine ⟨fun c => Cert.KernelIdeal.Hand.W3 m ρ c (Proc.devRef .tc Cert.KernelIdeal.main_v20), ?_, ?_⟩
  · exact (θ_run Cert.KernelIdeal.defs _ _).mono (fun r h c =>
      ⟨h c _ (Cert.KernelIdeal.Hand.mem_uc Cert.KernelIdeal.main_v20 (by decide)),
       (h c _ (Cert.KernelIdeal.Hand.mem_uc Cert.KernelIdeal.main_arg0 (by decide))).trans (Cert.KernelIdeal.Hand.W3_main_arg0 m ρ c),
       (h c _ (Cert.KernelIdeal.Hand.mem_uc Cert.KernelIdeal.main_arg1 (by decide))).trans (Cert.KernelIdeal.Hand.W3_main_arg1 m ρ c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq]
    funext i
    rw [Cert.GramLoss.Ref.reference_value, (hagree c).1, (hagree c).2]
    exact (Cert.GramLoss.KV.kernel_value m ρ c i).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
